-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30522x768 : Shape := ⟨2, ![30522, 768]⟩
abbrev S16x128x30522 : Shape := ⟨3, ![16, 128, 30522]⟩
abbrev S_ : Shape := ⟨0, ![]⟩

class Facts : Prop where
  bcast_S_S30522x768 : S_.BroadcastsInDim S30522x768 (![] : Fin 0 → Fin S30522x768.rank)
  reducesTo_S30522x768_S_d0_1 : S30522x768.ReducesTo [0, 1] S_
  h_S_ : 0 < S_.numel
  bcast_S_S16x128x30522 : S_.BroadcastsInDim S16x128x30522 (![] : Fin 0 → Fin S16x128x30522.rank)
  reducesTo_S16x128x30522_S_d0_1_2 : S16x128x30522.ReducesTo [0, 1, 2] S_

variable [Facts]

def fn {F : FTy → Type} [FloatOps F] (main_arg0 : FVec F S30522x768 .f32) (main_arg1 : FVec F S16x128x30522 .f32) : IVec S_ 1 :=
  let main_v0 : FVec F S30522x768 .f32 := Host.absf main_arg0
  let main_cst : FVec F S_ .f32 := constant S_ .f32 0x7F800000#32
  let main_v1 : FVec F S30522x768 .f32 := broadcastInDim S30522x768 ![] bcast_S_S30522x768 main_cst
  let main_v2 : IVec S30522x768 1 := cmpf .olt main_v0 main_v1
  let main_c : IVec S_ 1 := constantI S_ 1 1#1
  let main_v3 : IVec S_ 1 := (fun x v => Host.reduce IntOp.andi x v reducesTo_S30522x768_S_d0_1 h_S_) main_v2 main_c
  let main_v4 : FVec F S16x128x30522 .f32 := Host.absf main_arg1
  let main_cst_0 : FVec F S_ .f32 := constant S_ .f32 0x7F800000#32
  let main_v5 : FVec F S16x128x30522 .f32 := broadcastInDim S16x128x30522 ![] bcast_S_S16x128x30522 main_cst_0
  let main_v6 : IVec S16x128x30522 1 := cmpf .olt main_v4 main_v5
  let main_c_1 : IVec S_ 1 := constantI S_ 1 1#1
  let main_v7 : IVec S_ 1 := (fun x v => Host.reduce IntOp.andi x v reducesTo_S16x128x30522_S_d0_1_2 h_S_) main_v6 main_c_1
  let main_v8 : IVec S_ 1 := andi main_v3 main_v7
  main_v8
-- ==== Kernel.lean ====
abbrev S30522x768 : Shape := ⟨2, ![30522, 768]⟩
abbrev S16x128x30522 : Shape := ⟨3, ![16, 128, 30522]⟩
abbrev S2048x30522 : Shape := ⟨2, ![2048, 30522]⟩
abbrev S16x128x768 : Shape := ⟨3, ![16, 128, 768]⟩
abbrev S2048x2048 : Shape := ⟨2, ![2048, 2048]⟩
abbrev S2048x768 : Shape := ⟨2, ![2048, 768]⟩

abbrev nBuf : Space → Nat
  | .hbm => 4
  | .vmem => 5
  | .smem => 0
  | _ => 0

abbrev bufTy : (tb : Table) → Fin (tcTables nBuf tb) → BufTy
  | .hbm, ⟨0, _⟩ => ⟨S30522x768, .f32⟩
  | .hbm, ⟨1, _⟩ => ⟨S16x128x30522, .f32⟩
  | .hbm, ⟨2, _⟩ => ⟨S2048x30522, .f32⟩
  | .hbm, ⟨3, _⟩ => ⟨S16x128x768, .f32⟩
  | .local _ .vmem, ⟨0, _⟩ => ⟨S2048x2048, .f32⟩
  | .local _ .vmem, ⟨1, _⟩ => ⟨S2048x2048, .f32⟩
  | .local _ .vmem, ⟨2, _⟩ => ⟨S2048x768, .f32⟩
  | .local _ .vmem, ⟨3, _⟩ => ⟨S2048x768, .f32⟩
  | .local _ .vmem, ⟨4, _⟩ => ⟨S16x128x768, .f32⟩
  | _, _ => ⟨S30522x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c14_i32 : BitVec 32 := 14#32
  let v4 : BitVec 1 := Scalar.cmpi .slt arg0 c14_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c14_i32_3 : BitVec 32 := 14#32
  let v8 : BitVec 1 := Scalar.cmpi .eq arg0 c14_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16x128x30522_S2048x30522 : S16x128x30522.ShapeCasts S2048x30522
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  shapeCasts_S2048x768_S16x128x768 : S2048x768.ShapeCasts S16x128x768
  inb_S16x128x768_S16x128x768_0_0_0 : ∀ a, (![0, 0, 0] : Fin 3 → Nat) a + S16x128x768.size a ≤ S16x128x768.size a
  h_S16x128x768 : 0 < S16x128x768.numel
  shapeCasts_S16x128x768_S16x128x768 : S16x128x768.ShapeCasts S16x128x768
  iota_S2048x2048_d1_w32 : S2048x2048.Iotas .tc 32 [1]
  iota_S2048x768_d0_w32 : S2048x768.Iotas .tc 32 [0]
  dot_S2048x2048_S2048x768_S2048x768_1_0_0_1_n_n_wf : DotDims.WF S2048x2048 S2048x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x2048.size a < S2048x30522.size a
  hwx0_0 : ∀ i : grid0.Coords, EltTy.bits .f32 = 32 ∨ (Rect.unit (s := S2048x30522) (fun a => cc0_transform_0 i a * S2048x2048.size a) (fun a => (Pipeline.Clip.of (cc0_transform_0 i a) (S2048x2048.size a) (S2048x30522.size a)).extent (S2048x2048.size a)) fun a => Pipeline.Clip.inb (Pipeline.Clip.ok_of (hstart0_0 i a))).WholeWords (EltTy.packing .f32)
  hwxs0_0 : ∀ i : grid0.Coords, EltTy.bits .f32 = 32 ∨ (Rect.unit (s := S2048x2048) (fun _ => 0) (fun a => (Pipeline.Clip.of (cc0_transform_0 i a) (S2048x2048.size a) (S2048x30522.size a)).extent (S2048x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x768.size a < S30522x768.size a
  hwx0_1 : ∀ i : grid0.Coords, EltTy.bits .f32 = 32 ∨ (Rect.unit (s := S30522x768) (fun a => cc0_transform_1 i a * S2048x768.size a) (fun a => (Pipeline.Clip.of (cc0_transform_1 i a) (S2048x768.size a) (S30522x768.size a)).extent (S2048x768.size a)) fun a => Pipeline.Clip.inb (Pipeline.Clip.ok_of (hstart0_1 i a))).WholeWords (EltTy.packing .f32)
  hwxs0_1 : ∀ i : grid0.Coords, EltTy.bits .f32 = 32 ∨ (Rect.unit (s := S2048x768) (fun _ => 0) (fun a => (Pipeline.Clip.of (cc0_transform_1 i a) (S2048x768.size a) (S30522x768.size a)).extent (S2048x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128x768.size a ≤ S16x128x768.size a
  hwx0_2 : ∀ i : grid0.Coords, EltTy.bits .f32 = 32 ∨ (Rect.block (s := S16x128x768) S16x128x768.size (cc0_transform_2 i) (hinb0_2 i)).WholeWords (EltTy.packing .f32)

variable [Facts₀]

def dot_S2048x2048_S2048x768_S2048x768_1_0_0_1_n_n : DotDims S2048x2048 S2048x768 S2048x768 where
  lhsContracting := [1]
  rhsContracting := [0]
  lhsNonContracting := [0]
  rhsNonContracting := [1]
  lhsBatch := []
  rhsBatch := []
  wf := dot_S2048x2048_S2048x768_S2048x768_1_0_0_1_n_n_wf

abbrev win0_0 : Pipeline.Window sig grid0 :=
  Pipeline.Window.ofSpecClip (Memref.whole main_v0) S2048x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S2048x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S16x128x768.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S30522x768 : Shape := ⟨2, ![30522, 768]⟩
abbrev S16x128x30522 : Shape := ⟨3, ![16, 128, 30522]⟩
abbrev S2048x30522 : Shape := ⟨2, ![2048, 30522]⟩
abbrev S_ : Shape := ⟨0, ![]⟩
abbrev S2048x30720 : Shape := ⟨2, ![2048, 30720]⟩
abbrev S30720x768 : Shape := ⟨2, ![30720, 768]⟩
abbrev S2048x768 : Shape := ⟨2, ![2048, 768]⟩
abbrev S256x512 : Shape := ⟨2, ![256, 512]⟩
abbrev S512x768 : Shape := ⟨2, ![512, 768]⟩
abbrev S256x768 : Shape := ⟨2, ![256, 768]⟩
abbrev S16x128x768 : Shape := ⟨3, ![16, 128, 768]⟩

abbrev nBuf : Space → Nat
  | .hbm => 11
  | .vmem => 7
  | .smem => 0
  | _ => 0

abbrev bufTy : (tb : Table) → Fin (tcTables nBuf tb) → BufTy
  | .hbm, ⟨0, _⟩ => ⟨S30522x768, .f32⟩
  | .hbm, ⟨1, _⟩ => ⟨S16x128x30522, .f32⟩
  | .hbm, ⟨2, _⟩ => ⟨S2048x30522, .f32⟩
  | .hbm, ⟨3, _⟩ => ⟨S_, .i32⟩
  | .hbm, ⟨4, _⟩ => ⟨S_, .f32⟩
  | .hbm, ⟨5, _⟩ => ⟨S2048x30720, .f32⟩
  | .hbm, ⟨6, _⟩ => ⟨S_, .i32⟩
  | .hbm, ⟨7, _⟩ => ⟨S_, .f32⟩
  | .hbm, ⟨8, _⟩ => ⟨S30720x768, .f32⟩
  | .hbm, ⟨9, _⟩ => ⟨S2048x768, .f32⟩
  | .hbm, ⟨10, _⟩ => ⟨S16x128x768, .f32⟩
  | .local _ .vmem, ⟨0, _⟩ => ⟨S256x512, .f32⟩
  | .local _ .vmem, ⟨1, _⟩ => ⟨S256x512, .f32⟩
  | .local _ .vmem, ⟨2, _⟩ => ⟨S512x768, .f32⟩
  | .local _ .vmem, ⟨3, _⟩ => ⟨S512x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | _, _ => ⟨S30522x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 60], ![false, false, false]⟩

def k0_cond2 (i : grid0.Coords) : BitVec 1 :=
  let arg2 : BitVec 32 := BitVec.ofNat 32 (i 2).val
  let c59_i32 : BitVec 32 := 59#32
  let v13 : BitVec 1 := Scalar.cmpi .eq arg2 c59_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S16x128x30522_S2048x30522 : S16x128x30522.ShapeCasts S2048x30522
  pads_S2048x30522_S2048x30720_000_01980 : S2048x30522.Pads (![0, 0] : Fin 2 → Nat) ![0, 198] ![0, 0] S2048x30720
  h_S_ : 0 < S_.numel
  pads_S30522x768_S30720x768_01980_000 : S30522x768.Pads (![0, 0] : Fin 2 → Nat) ![198, 0] ![0, 0] S30720x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  shapeCasts_S2048x768_S16x128x768 : S2048x768.ShapeCasts S16x128x768
  dot_S256x512_S512x768_S256x768_1_0_0_1_n_n_wf : DotDims.WF S256x512 S512x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x30720.size a
  hwx0_0 : ∀ i : grid0.Coords, EltTy.bits .f32 = 32 ∨ (Rect.block (s := S2048x30720) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S30720x768.size a
  hwx0_1 : ∀ i : grid0.Coords, EltTy.bits .f32 = 32 ∨ (Rect.block (s := S30720x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S2048x768.size a
  hwx0_2 : ∀ i : grid0.Coords, EltTy.bits .f32 = 32 ∨ (Rect.block (s := S2048x768) S256x768.size (cc0_transform_2 i) (hinb0_2 i)).WholeWords (EltTy.packing .f32)

variable [Facts₀]

def dot_S256x512_S512x768_S256x768_1_0_0_1_n_n : DotDims S256x512 S512x768 S256x768 where
  lhsContracting := [1]
  rhsContracting := [0]
  lhsNonContracting := [0]
  rhsNonContracting := [1]
  lhsBatch := []
  rhsBatch := []
  wf := dot_S256x512_S512x768_S256x768_1_0_0_1_n_n_wf

abbrev win0_0 : Pipeline.Window sig grid0 :=
  Pipeline.Window.ofSpec (Memref.whole main_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.KData.lean ====
/-
  What the kernel's staging buffers hold after its body, point by point.

  The kernel walks the 30522 table rows in fifteen blocks of 2048. At point `t` its first window holds columns
  2048·t … of the reshaped weights (2048 positions × 2048 rows), its second the matching 2048 table rows × 768
  columns, and its third — the whole 16 × 128 × 768 result, kept in place across the grid — the running sum of the
  block products. The last block overhangs the table by 198 rows; there a buffer's tail holds words nothing names,
  and the body replaces them by zeros before it multiplies. So the proof data names each input buffer on the part
  inside the arrays only (filled out with the zero word), and the result buffer as a function of those blocks:

    acc 0      = product of block 0
    acc (t+1)  = acc t + product of block t+1            (t + 1 < 14)
    acc 14     = acc 13 + product of block 14 with rows ≥ 1850 of both operands zeroed.
-/
import proofs.«113590_g2000002446326655_pallasbulk_315_20_alg».proof.Proof.Gen.KernelIdeal.Frame
import proofs.«113590_g2000002446326655_pallasbulk_315_20_alg».proof.Proof.Gen.KernelIdeal.Skeleton

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-- The first window's buffer at point `t` on the part inside the array — 2048 positions by the block's rows of
    the reshaped weights —, filled out with the zero word past the array's end. -/
def xb (c : Dev nD) (t : Fin cfg0.N) : Vec F S2048x2048 .f32 :=
  win0_0.fill (grid0.coords t) (fun _ => Scalar.ofBits .f32 0#32) (iblk m c 0 t)

/-- The second window's likewise: the block's table rows by 768 columns. -/
def wb (c : Dev nD) (t : Fin cfg0.N) : Vec F S2048x768 .f32 :=
  win0_1.fill (grid0.coords t) (fun _ => Scalar.ofBits .f32 0#32) (iblk m c 1 t)

/-- The running sum of block products the result's buffer holds after the body at position `n`. -/
def acc (c : Dev nD) : (n : ℕ) → n < cfg0.N → Vec F S16x128x768 .f32
  | 0, hn => k0_pay1 (xb m c ⟨0, hn⟩) (wb m c ⟨0, hn⟩)
  | n + 1, hn =>
    if n + 1 = 14 then k0_pay3 (acc c n (Nat.lt_of_succ_lt hn)) (xb m c ⟨n + 1, hn⟩) (wb m c ⟨n + 1, hn⟩)
    else k0_pay2 (acc c n (Nat.lt_of_succ_lt hn)) (xb m c ⟨n + 1, hn⟩) (wb m c ⟨n + 1, hn⟩)

theorem acc_zero (c : Dev nD) (hn : 0 < cfg0.N) : acc m c 0 hn = k0_pay1 (xb m c ⟨0, hn⟩) (wb m c ⟨0, hn⟩) := rfl

theorem acc_mid (c : Dev nD) (n : ℕ) (hn : n + 1 < cfg0.N) (h : n + 1 ≠ 14) :
    acc m c (n + 1) hn = k0_pay2 (acc m c n (Nat.lt_of_succ_lt hn)) (xb m c ⟨n + 1, hn⟩) (wb m c ⟨n + 1, hn⟩) := by
  rw [acc]; exact if_neg h

theorem acc_last (c : Dev nD) (n : ℕ) (hn : n + 1 < cfg0.N) (h : n + 1 = 14) :
    acc m c (n + 1) hn = k0_pay3 (acc m c n (Nat.lt_of_succ_lt hn)) (xb m c ⟨n + 1, hn⟩) (wb m c ⟨n + 1, hn⟩) := by
  rw [acc]; exact if_pos h

/-- The proof data of the one pipeline on core `c`: the arrays as the region finds them; after the body at point
    `t` the two input buffers at their blocks and the result's at the running sum; the region's own invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb m c t
    | ⟨1, _⟩ => wb m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xb m c t := by dsimp only [dats]
theorem after_1 (c : Dev nD) (t : Fin cfg0.N) : (dats m 0 c).after 1 t = wb m c t := by dsimp only [dats]
theorem after_2 (c : Dev nD) (t : Fin cfg0.N) : (dats m 0 c).after 2 t = acc m c t.val t.isLt := by dsimp only [dats]

end Cert.KernelIdeal.Hand

end
-- ==== Proof.KBodyA.lean ====
/-
  The facts the body's proof rests on, none of them about memory.

  The grid coordinate k runs over 0 … 14. The body's three conditions hold at k = 0, at 0 < k < 14 and at k = 14,
  one at each point. A block of 2048 table rows starting at row 2048·k ends inside the 30522 rows unless k = 14,
  where only 30522 − 14·2048 = 1850 of its rows exist. So at k ≠ 14 a fetched buffer holds its block and nothing
  else, whatever it held before; at k = 14 it holds the block on rows (columns, for the first operand) below 1850
  and unnamed words from there on — and there the body replaces exactly the rows (columns) from 1850 on by zero
  before it multiplies. Either way the product the body forms does not depend on the unnamed words.
-/
import proofs.«113590_g2000002446326655_pallasbulk_315_20_alg».proof.Proof.KData
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

variable (m : (ℓ : Loc nD τ sig) → Buf (Elt F) ℓ)

/-! ## The three cases in closed form -/

/-- The first condition holds at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second at the points strictly between the first and the last. -/
theorem hcond2 : ∀ t : Fin cfg0.N, k0_cond2 (grid0.coords t) = 1#1 ↔ (t.val ≠ 0 ∧ t.val ≠ 14) :=
  (by decide +kernel : ∀ t : Fin grid0.N, k0_cond2 (grid0.coords t) = 1#1 ↔ (t.val ≠ 0 ∧ t.val ≠ 14))
/-- The third at the last point only. -/
theorem hcond3 : ∀ t : Fin cfg0.N, k0_cond3 (grid0.coords t) = 1#1 ↔ t.val = 14 :=
  (by decide +kernel : ∀ t : Fin grid0.N, k0_cond3 (grid0.coords t) = 1#1 ↔ t.val = 14)

/-! ## Where the blocks end -/

/-- Before the last point the first operand's block lies inside its array on both axes, -/
theorem noclip0 : ∀ t : Fin cfg0.N, t.val ≠ 14 → ∀ a, win0_0.clip (grid0.coords t) a = none :=
  (by decide +kernel : ∀ t : Fin grid0.N, t.val ≠ 14 → ∀ a, win0_0.clip (grid0.coords t) a = none)
/-- and so does the second operand's. -/
theorem noclip1 : ∀ t : Fin cfg0.N, t.val ≠ 14 → ∀ a, win0_1.clip (grid0.coords t) a = none :=
  (by decide +kernel : ∀ t : Fin grid0.N, t.val ≠ 14 → ∀ a, win0_1.clip (grid0.coords t) a = none)
/-- At the last point the first operand's block has 1850 of its 2048 columns inside the array, -/
theorem xsize0_last : ∀ a, win0_0.xsize (grid0.coords t0_14) a = ![2048, 1850] a := by decide +kernel
/-- the second operand's 1850 of its 2048 rows. -/
theorem xsize1_last : ∀ a, win0_1.xsize (grid0.coords t0_14) a = ![1850, 768] a := by decide +kernel

/-- The result's window is the whole result: never cut, -/
theorem noclip2 : ∀ (i : grid0.Coords) a, (cfg0.win 2).clip i a = none := fun _ _ => rfl
/-- and, one of the three conditions holding at every point, stored into at every point. -/
theorem live2 : ∀ i : grid0.Coords, cfg0.idle 2 i = false := by decide +kernel

/-- A buffer filled with a block that lies inside its array holds the block, whatever it held. -/
theorem fill0_eq (t : Fin cfg0.N) (ht : t.val ≠ 14) (d d' : S2048x2048.Idx → Elt F .f32)
    (g : (win0_0.xblock (grid0.coords t)).Idx → Elt F .f32) :
    win0_0.fill (grid0.coords t) d g = win0_0.fill (grid0.coords t) d' g := by
  funext j
  have hm : win0_0.moved (grid0.coords t) j = true :=
    (win0_0.moved_iff _ j).mpr fun a => by have := (j a).isLt; unfold Window.xsize; rw [noclip0 t ht a]; exact this
  unfold Window.fill; rw [dif_pos hm, dif_pos hm]
theorem fill1_eq (t : Fin cfg0.N) (ht : t.val ≠ 14) (d d' : S2048x768.Idx → Elt F .f32)
    (g : (win0_1.xblock (grid0.coords t)).Idx → Elt F .f32) :
    win0_1.fill (grid0.coords t) d g = win0_1.fill (grid0.coords t) d' g := by
  funext j
  have hm : win0_1.moved (grid0.coords t) j = true :=
    (win0_1.moved_iff _ j).mpr fun a => by have := (j a).isLt; unfold Window.xsize; rw [noclip1 t ht a]; exact this
  unfold Window.fill; rw [dif_pos hm, dif_pos hm]

/-! ## The last point's masks -/

/-- A lane-wise choice depends on its first alternative only where the condition holds. -/
theorem select_congr_on {s : Shape} {α : Type} (c : IVec s 1) (a a' b : s.Idx → α) (h : ∀ i, c i = 1 → a i = a' i) :
    select c a b = select c a' b := by
  funext i
  show (if c i = 1 then a i else b i) = (if c i = 1 then a' i else b i)
  split
  · next hc => exact h i hc
  · rfl

/-- The first operand with its columns from 1850 on replaced by zero, as the last point's body forms it. -/
def mask0 (v13 : Vec F S2048x2048 .f32) : FVec F S2048x2048 .f32 :=
  have v14 : FVec F S2048x2048 .f32 := shapeCast S2048x2048 v13 shapeCasts_S2048x2048_S2048x2048
  have v16 : IVec S2048x2048 32 := iota .tc S2048x2048 32 [1] iota_S2048x2048_d1_w32
  have v18 : IVec S2048x2048 32 := broadcast S2048x2048 1850#32
  have v19 : IVec S2048x2048 1 := cmpi .slt v16 v18
  have cst : F .f32 := Scalar.ofBits .f32 0x00000000#32
  have v20 : FVec F S2048x2048 .f32 := broadcast S2048x2048 cst
  select v19 v14 v20

/-- The second operand with its rows from 1850 on replaced by zero. -/
def mask1 (v15 : Vec F S2048x768 .f32) : Vec F S2048x768 .f32 :=
  have v17 : IVec S2048x768 32 := iota .tc S2048x768 32 [0] iota_S2048x768_d0_w32
  have v22 : IVec S2048x768 32 := broadcast S2048x768 1850#32
  have v23 : IVec S2048x768 1 := cmpi .slt v17 v22
  have cst_12 : F .f32 := Scalar.ofBits .f32 0x00000000#32
  have v24 : FVec F S2048x768 .f32 := broadcast S2048x768 cst_12
  select v23 v15 v24

/-- What the last point's body stores, from the result so far and the two masked operands. -/
def core3 (v11 : Vec F S16x128x768 .f32) (v21 : FVec F S2048x2048 .f32) (v25 : Vec F S2048x768 .f32) : FVec F S16x128x768 .f32 :=
  have v12 : FVec F S16x128x768 .f32 := shapeCast S16x128x768 v11 shapeCasts_S16x128x768_S16x128x768
  have v26 : FVec F S2048x2048 .bf16 := truncf .bf16 v21 bitsLt_bf16_f32
  have v27 : FVec F S2048x768 .bf16 := truncf .bf16 v25 bitsLt_bf16_f32
  have cst_13 : FVec F S2048x768 .f32 := constant S2048x768 .f32 0x00000000#32
  have v28 : FVec F S2048x768 .f32 := matmul dot_S2048x2048_S2048x768_S2048x768_1_0_0_1_n_n none v26 v27 cst_13
  have v29 : FVec F S16x128x768 .f32 := shapeCast S16x128x768 v28 shapeCasts_S2048x768_S16x128x768
  have v30 : FVec F S16x128x768 .f32 := addf v12 v29
  v30

/-- The last point's payload reads its operands through the masks only. -/
theorem pay3_eq (v11 : Vec F S16x128x768 .f32) (v13 : Vec F S2048x2048 .f32) (v15 : Vec F S2048x768 .f32) :
    k0_pay3 v11 v13 v15 = core3 v11 (mask0 v13) (mask1 v15) := rfl

/-- Where the first mask's condition holds the column is below 1850: a signed comparison of a column number below
    2048 with 1850, checked column by column. -/
theorem mask0_lt (j : S2048x2048.Idx)
    (h : cmpi .slt (iota .tc S2048x2048 32 [1] iota_S2048x2048_d1_w32) (broadcast S2048x2048 1850#32) j = 1) :
    (j 1).val < 1850 :=
  (by decide +kernel : ∀ n : Fin 2048, IntOp.cmpi .slt (BitVec.ofNat 32 (0 * 2048 + n.val)) (1850#32) = 1#1 → n.val < 1850) (j 1) h

/-- Where the second mask's holds the row is below 1850. -/
theorem mask1_lt (j : S2048x768.Idx)
    (h : cmpi .slt (iota .tc S2048x768 32 [0] iota_S2048x768_d0_w32) (broadcast S2048x768 1850#32) j = 1) :
    (j 0).val < 1850 :=
  (by decide +kernel : ∀ n : Fin 2048, IntOp.cmpi .slt (BitVec.ofNat 32 (0 * 2048 + n.val)) (1850#32) = 1#1 → n.val < 1850) (j 0) h

/-- The masked first operand at the last point does not depend on what its buffer held past the array's end: the
    mask keeps the columns below 1850, which are the ones the fetch lands. -/
theorem mask0_fill (d d' : S2048x2048.Idx → Elt F .f32) (g : (win0_0.xblock (grid0.coords t0_14)).Idx → Elt F .f32) :
    mask0 (win0_0.fill (grid0.coords t0_14) d g) = mask0 (win0_0.fill (grid0.coords t0_14) d' g) := by
  unfold mask0
  refine select_congr_on _ _ _ _ fun j hc => ?_
  rw [shapeCast_self, shapeCast_self]
  have hlt : (j 1).val < 1850 := mask0_lt j hc
  have hm : win0_0.moved (grid0.coords t0_14) j = true := (win0_0.moved_iff _ j).mpr fun a => by
    rw [xsize0_last a]
    match a with
    | ⟨0, _⟩ => exact (j 0).isLt
    | ⟨1, _⟩ => exact hlt
  unfold Window.fill; rw [dif_pos hm, dif_pos hm]

/-- The masked second operand likewise: the mask keeps the rows below 1850. -/
theorem mask1_fill (d d' : S2048x768.Idx → Elt F .f32) (g : (win0_1.xblock (grid0.coords t0_14)).Idx → Elt F .f32) :
    mask1 (win0_1.fill (grid0.coords t0_14) d g) = mask1 (win0_1.fill (grid0.coords t0_14) d' g) := by
  unfold mask1
  refine select_congr_on _ _ _ _ fun j hc => ?_
  have hlt : (j 0).val < 1850 := mask1_lt j hc
  have hm : win0_1.moved (grid0.coords t0_14) j = true := (win0_1.moved_iff _ j).mpr fun a => by
    rw [xsize1_last a]
    match a with
    | ⟨0, _⟩ => exact hlt
    | ⟨1, _⟩ => exact (j 1).isLt
  unfold Window.fill; rw [dif_pos hm, dif_pos hm]

/-- So the last point's payload is the same whatever the two buffers held past the arrays' end. -/
theorem pay3_fill (A : Vec F S16x128x768 .f32) (d0 d0' : S2048x2048.Idx → Elt F .f32)
    (g0 : (win0_0.xblock (grid0.coords t0_14)).Idx → Elt F .f32) (d1 d1' : S2048x768.Idx → Elt F .f32)
    (g1 : (win0_1.xblock (grid0.coords t0_14)).Idx → Elt F .f32) :
    k0_pay3 A (win0_0.fill (grid0.coords t0_14) d0 g0) (win0_1.fill (grid0.coords t0_14) d1 g1)
      = k0_pay3 A (win0_0.fill (grid0.coords t0_14) d0' g0) (win0_1.fill (grid0.coords t0_14) d1' g1) := by
  rw [pay3_eq, pay3_eq, mask0_fill d0 d0' g0, mask1_fill d1 d1' g1]

/-! ## The running sum at a point -/

theorem acc_at_zero (c : Dev nD) (t : Fin cfg0.N) (h0 : t.val = 0) :
    acc m c t.val t.isLt = k0_pay1 (xb m c t) (wb m c t) := by
  obtain ⟨n, hn⟩ := t
  cases n with
  | zero => exact acc_zero m c hn
  | succ n => exact absurd h0 (Nat.succ_ne_zero n)

theorem acc_at_mid (c : Dev nD) (t : Fin cfg0.N) (h0 : t.val ≠ 0) (h14 : t.val ≠ 14) :
    acc m c t.val t.isLt
      = k0_pay2 (acc m c (t.val - 1) (Nat.lt_of_le_of_lt (Nat.sub_le _ _) t.isLt)) (xb m c t) (wb m c t) := by
  obtain ⟨n, hn⟩ := t
  cases n with
  | zero => exact absurd rfl h0
  | succ n => exact acc_mid m c n hn h14

theorem acc_at_last (c : Dev nD) (t : Fin cfg0.N) (h14 : t.val = 14) :
    acc m c t.val t.isLt
      = k0_pay3 (acc m c (t.val - 1) (Nat.lt_of_le_of_lt (Nat.sub_le _ _) t.isLt)) (xb m c t) (wb m c t) := by
  obtain ⟨n, hn⟩ := t
  cases n with
  | zero => exact absurd h14 (show ¬(0 : ℕ) = 14 by decide)
  | succ n => exact acc_last m c n hn h14

/-! ## What the body finds in each buffer -/

/-- The first operand's buffer, fetched at every point: its block on the part inside the array, anything beyond. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]; try rfl
/-- The second operand's likewise. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]; try rfl
/-- The result's buffer at the first point: anything. -/
theorem before_2_zero (c : Dev nD) (t : Fin cfg0.N) (h0 : t.val = 0) (d) : (dats m 0 c).before 2 t d = d :=
  (dats m 0 c).before_out_reset 2 rfl t (.inl h0) d
/-- At a later point: the running sum the point before left, the buffer not having been written back meanwhile. -/
theorem before_2_pos (c : Dev nD) (t : Fin cfg0.N) (h0 : t.val ≠ 0) (d) :
    (dats m 0 c).before 2 t d = acc m c (t.val - 1) (Nat.lt_of_le_of_lt (Nat.sub_le _ _) t.isLt) := by
  have hN : t.val < 15 := lt_of_lt_of_eq t.isLt N_0
  have hfl : (cfg0.win 2).flush ⟨t.val - 1, Nat.lt_of_le_of_lt (Nat.sub_le _ _) t.isLt⟩ = false :=
    Bool.eq_false_iff.mpr fun h => by
      have := (flush0_2 _).mp h
      dsimp only at this; omega
  rw [(dats m 0 c).before_out_kept 2 rfl t h0 hfl live2 noclip2 d, after_2]

end Cert.KernelIdeal.Hand

end
-- ==== Proof.KBody.lean ====
/-
  The kernel's body at every grid point, and the run of the whole program.

  At each point the body finds the two operand buffers just fetched — the block on the part inside the array,
  words nothing names beyond it — and the result's buffer at the running sum the point before left (at anything,
  at the first point). Exactly one of its three conditions holds: at the first point it stores the product of the
  two blocks; strictly between the first and the last it stores the sum so far plus the product; at the last it
  stores the sum so far plus the product of the operands with their rows (columns) from 1850 on set to zero. In
  each case what it stores is the running sum at that point, whatever the unnamed words were: before the last
  point there are none, and at the last the masks discard them. The operand buffers it only reads. The result's
  buffer is written back after the last point only, so between points it keeps the sum.
-/
import proofs.«113590_g2000002446326655_pallasbulk_315_20_alg».proof.Proof.KBodyA
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole loads and stores on the staging buffers

Every access of the body is at offsets zero and the buffer's own sizes: a load reads the buffer's contents, an
unmasked store replaces them. -/

theorem hz2 : (![0, 0] : Fin 2 → Nat) = fun _ => 0 := funext fun a => by fin_cases a <;> rfl
theorem hz3 : (![0, 0, 0] : Fin 3 → Nat) = fun _ => 0 := funext fun a => by fin_cases a <;> rfl

theorem rd0_0 : (Memref.whole cc0_stg0_0 : Memref sig .tc _ _ _).view.readAt (Elt F) (Rect.unit (s := S2048x2048) ![0, 0] S2048x2048.size
    inb_S2048x2048_S2048x2048_0_0).toLoadRect = id := funext (Memref.readAt_unit_zero (Elt F) cc0_stg0_0 hz2 _)
theorem rd0_1 : (Memref.whole cc0_stg0_1 : Memref sig .tc _ _ _).view.readAt (Elt F) (Rect.unit (s := S2048x2048) ![0, 0] S2048x2048.size
    inb_S2048x2048_S2048x2048_0_0).toLoadRect = id := funext (Memref.readAt_unit_zero (Elt F) cc0_stg0_1 hz2 _)
theorem rd1_0 : (Memref.whole cc0_stg1_0 : Memref sig .tc _ _ _).view.readAt (Elt F) (Rect.unit (s := S2048x768) ![0, 0] S2048x768.size
    inb_S2048x768_S2048x768_0_0).toLoadRect = id := funext (Memref.readAt_unit_zero (Elt F) cc0_stg1_0 hz2 _)
theorem rd1_1 : (Memref.whole cc0_stg1_1 : Memref sig .tc _ _ _).view.readAt (Elt F) (Rect.unit (s := S2048x768) ![0, 0] S2048x768.size
    inb_S2048x768_S2048x768_0_0).toLoadRect = id := funext (Memref.readAt_unit_zero (Elt F) cc0_stg1_1 hz2 _)
theorem rd2_0 : (Memref.whole cc0_stg2_0 : Memref sig .tc _ _ _).view.readAt (Elt F) (Rect.unit (s := S16x128x768) ![0, 0, 0] S16x128x768.size
    inb_S16x128x768_S16x128x768_0_0_0).toLoadRect = id := funext (Memref.readAt_unit_zero (Elt F) cc0_stg2_0 hz3 _)
theorem wr2_0 : ∀ f w, (((Memref.whole cc0_stg2_0).access (Rect.unit (s := S16x128x768) ![0, 0, 0] S16x128x768.size
    inb_S16x128x768_S16x128x768_0_0_0)) : View sig .tc _ _ _).write (Elt F) f w Finset.univ = w :=
  Memref.write_access_unit_zero_univ (Elt F) cc0_stg2_0 hz3 _

/-! ## The body in each of its three cases

On any of the operands' two buffers each and the result's one, holding `X0`, `X1`, `X2`. -/

/-- At the first point: the operands are loaded, the result's buffer is loaded and not used, and the product of the
    operands is stored over it. -/
theorem sound_body1 (c : Dev nD) (E : Set ℕ) (i : grid0.Coords) (h1 : k0_cond1 i = 1#1) (h2 : ¬k0_cond2 i = 1#1) (h3 : ¬k0_cond3 i = 1#1)
    (s0 : Fin 2) (s1 : Fin 2) (s2 : Fin 1)
    (X0 : Vec F S2048x2048 .f32) (X1 : Vec F S2048x768 .f32) (X2 : Vec F S16x128x768 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__mm_kernel i (stage0_0 s0) (hstage0_0 s0) (stage0_1 s1) (hstage0_1 s1) (stage0_2 s2) (hstage0_2 s2)) K := by
  fin_cases s0 <;> fin_cases s1 <;> fin_cases s2
  all_goals
    simp only [owns_whole_eq, cc0__mm_kernel_eq_skeleton]; unfold cc0__mm_kernel_skel
    simp only [dif_pos h1, dif_neg h2, dif_neg h3, Prog.lift, Prog.bind_op, Prog.bind_ret]
    iintro ⟨⟨⟨%f0, %hf0, H0⟩, ⟨%f1, %hf1, H1⟩, ⟨%f2, %hf2, H2⟩⟩, Hk⟩
    sl_steps
    iapply Hk
    first
      | rw [rd0_0, rd1_0, wr2_0]
      | rw [rd0_0, rd1_1, wr2_0]
      | rw [rd0_1, rd1_0, wr2_0]
      | rw [rd0_1, rd1_1, wr2_0]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-- Strictly between the first and the last point: the result's buffer and the operands are loaded, and the sum of
    the former and the product of the latter is stored over the result's buffer. -/
theorem sound_body2 (c : Dev nD) (E : Set ℕ) (i : grid0.Coords) (h1 : ¬k0_cond1 i = 1#1) (h2 : k0_cond2 i = 1#1) (h3 : ¬k0_cond3 i = 1#1)
    (s0 : Fin 2) (s1 : Fin 2) (s2 : Fin 1)
    (X0 : Vec F S2048x2048 .f32) (X1 : Vec F S2048x768 .f32) (X2 : Vec F S16x128x768 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay2 X2 X0 X1)) -∗ K ⟨⟩))
      ⊢ wp frame (wpE (defs₀ (F := F)) Variants.none c none) E
          (cc0__mm_kernel i (stage0_0 s0) (hstage0_0 s0) (stage0_1 s1) (hstage0_1 s1) (stage0_2 s2) (hstage0_2 s2)) K := by
  fin_cases s0 <;> fin_cases s1 <;> fin_cases s2
  all_goals
    simp only [owns_whole_eq, cc0__mm_kernel_eq_skeleton]; unfold cc0__mm_kernel_skel
    simp only [dif_neg h1, dif_pos h2, dif_neg h3, Prog.lift, Prog.bind_op, Prog.bind_ret]
    iintro ⟨⟨⟨%f0, %hf0, H0⟩, ⟨%f1, %hf1, H1⟩, ⟨%f2, %hf2, H2⟩⟩, Hk⟩
    sl_steps
    iapply Hk
    first
      | rw [rd2_0, rd0_0, rd1_0, wr2_0]
      | rw [rd2_0, rd0_0, rd1_1, wr2_0]
      | rw [rd2_0, rd0_1, rd1_0, wr2_0]
      | rw [rd2_0, rd0_1, rd1_1, wr2_0]
    isplitl [H0]
    · iexists f0; isplitr; · ipureintro; exact hf0
      iexact H0
    isplitl [H1]
    · iexists f1; isplitr; · ipureintro; exact hf1
      iexact H1
    · iexists k0_pay2 f2 f0 f1; isplitr; · ipureintro; rw [hf0, hf1, hf2]
      iexact H2

/-- At the last point: the same with the operands masked. -/
theorem sound_body3 (c : Dev nD) (E : Set ℕ) (i : grid0.Coords) (h1 : ¬k0_cond1 i = 1#1) (h2 : ¬k0_cond2 i = 1#1) (h3 : k0_cond3 i = 1#1)
    (s0 : Fin 2) (s1 : Fin 2) (s2 : Fin 1)
    (X0 : Vec F S2048x2048 .f32) (X1 : Vec F S2048x768 .f32) (X2 : Vec F S16x128x768 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay3 X2 X0 X1)) -∗ K ⟨⟩))
      ⊢ wp frame (wpE (defs₀ (F := F)) Variants.none c none) E
          (cc0__mm_kernel i (stage0_0 s0) (hstage0_0 s0) (stage0_1 s1) (hstage0_1 s1) (stage0_2 s2) (hstage0_2 s2)) K := by
  fin_cases s0 <;> fin_cases s1 <;> fin_cases s2
  all_goals
    simp only [owns_whole_eq, cc0__mm_kernel_eq_skeleton]; unfold cc0__mm_kernel_skel
    simp only [dif_neg h1, dif_neg h2, dif_pos h3, Prog.lift, Prog.bind_op, Prog.bind_ret]
    iintro ⟨⟨⟨%f0, %hf0, H0⟩, ⟨%f1, %hf1, H1⟩, ⟨%f2, %hf2, H2⟩⟩, Hk⟩
    sl_steps
    iapply Hk
    first
      | rw [rd2_0, rd0_0, rd1_0, wr2_0]
      | rw [rd2_0, rd0_0, rd1_1, wr2_0]
      | rw [rd2_0, rd0_1, rd1_0, wr2_0]
      | rw [rd2_0, rd0_1, rd1_1, wr2_0]
    isplitl [H0]
    · iexists f0; isplitr; · ipureintro; exact hf0
      iexact H0
    isplitl [H1]
    · iexists f1; isplitr; · ipureintro; exact hf1
      iexact H1
    · iexists k0_pay3 f2 f0 f1; isplitr; · ipureintro; rw [hf0, hf1, hf2]
      iexact H2

/-! ## The body obligation -/

/-- The operands' windows are stored into at no point's expense: never idle. -/
theorem live0 : ∀ i : grid0.Coords, cfg0.idle 0 i = false := fun _ => rfl
theorem live1 : ∀ i : grid0.Coords, cfg0.idle 1 i = false := fun _ => rfl

/-- What the body is called with at point `t`: the region's invariant, what the core owes, and each window's
    current buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the operands' buffers stated on the part inside the arrays, the result's exactly. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) : (dats m 0 c).leaves 0 t
    = iprop(∃ d, owns (c : Thread nD τ) (st0_0 t) fullShare (win0_0.fill (grid0.coords t) d (win0_0.cut (grid0.coords t) (xb m c t)))) := by
  unfold Dat.leaves; rw [live0 (grid0.coords t)]; try rw [after_0]
  try rfl
theorem leaves_1 (c : Dev nD) (t : Fin cfg0.N) : (dats m 0 c).leaves 1 t
    = iprop(∃ d, owns (c : Thread nD τ) (st0_1 t) fullShare (win0_1.fill (grid0.coords t) d (win0_1.cut (grid0.coords t) (wb m c t)))) := by
  unfold Dat.leaves; rw [live1 (grid0.coords t)]; try rw [after_1]
  try rfl
theorem leaves_2 (c : Dev nD) (t : Fin cfg0.N) : (dats m 0 c).leaves 2 t
    = owns (c : Thread nD τ) (st0_2 t) fullShare (acc m c t.val t.isLt) := by
  unfold Dat.leaves; rw [live2 (grid0.coords t)]; try rw [after_2]
  try rfl

/-- The body at any point: by the point's case. The operands' buffers come back as found, which on the part inside
    the arrays is their blocks; the result's comes back at the case's payload of what was found, which is the running
    sum at the point (`fill0_eq`, `fill1_eq` before the last point, `pay3_fill` at it). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_0, leaves_1, leaves_2]
  rw [show (dats m 0 c).Φ t.succ = (dats m 0 c).Φ t.castSucc from rfl,
    show (dats m 0 c).owesAt () t.succ = (dats m 0 c).owesAt () t.castSucc from rfl]
  simp only [before_0, before_1]
  have hN : t.val < 15 := lt_of_lt_of_eq t.isLt N_0
  rw [show win0_0.cut (grid0.coords t) (xb m c t) = iblk m c 0 t from win0_0.cut_fill _ _ _,
    show win0_1.cut (grid0.coords t) (wb m c t) = iblk m c 1 t from win0_1.cut_fill _ _ _]
  by_cases h0 : t.val = 0
  · have h14 : t.val ≠ 14 := by omega
    have c1 : k0_cond1 (grid0.coords t) = 1#1 := (hcond1 t).mpr h0
    have c2 : ¬k0_cond2 (grid0.coords t) = 1#1 := fun h => ((hcond2 t).mp h).1 h0
    have c3 : ¬k0_cond3 (grid0.coords t) = 1#1 := fun h => h14 ((hcond3 t).mp h)
    simp only [before_2_zero m c t h0]
    rw [acc_at_zero m c t h0]
    have e : ∀ d0 d1, k0_pay1 (xb m c t) (wb m c t) = k0_pay1 (win0_0.fill (grid0.coords t) d0 (iblk m c 0 t)) (win0_1.fill (grid0.coords t) d1 (iblk m c 1 t)) := fun d0 d1 => by
      have e0 : xb m c t = win0_0.fill (grid0.coords t) d0 (iblk m c 0 t) := fill0_eq t h14 (fun _ => Scalar.ofBits .f32 0#32) d0 (iblk m c 0 t)
      have e1 : wb m c t = win0_1.fill (grid0.coords t) d1 (iblk m c 1 t) := fill1_eq t h14 (fun _ => Scalar.ofBits .f32 0#32) d1 (iblk m c 1 t)
      rw [e0, e1]
    iintro ⟨HΦ, Ho, ⟨%d0, H0⟩, ⟨%d1, H1⟩, ⟨%d2, H2⟩⟩
    iapply (sound_body1 (F := F) c Set.univ (grid0.coords t) c1 c2 c3 (cfg0.slots t 0) (cfg0.slots t 1) (cfg0.slots t 2)
      (win0_0.fill (grid0.coords t) d0 (iblk m c 0 t)) (win0_1.fill (grid0.coords t) d1 (iblk m c 1 t)) d2 _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [e d0 d1]; iexact H2
  by_cases h14 : t.val = 14
  · obtain rfl : t = t0_14 := Fin.ext h14
    have c1 : ¬k0_cond1 (grid0.coords t0_14) = 1#1 := fun h => h0 ((hcond1 t0_14).mp h)
    have c2 : ¬k0_cond2 (grid0.coords t0_14) = 1#1 := fun h => ((hcond2 t0_14).mp h).2 h14
    have c3 : k0_cond3 (grid0.coords t0_14) = 1#1 := (hcond3 t0_14).mpr h14
    simp only [before_2_pos m c t0_14 h0]
    rw [acc_at_last m c t0_14 h14]
    have e : ∀ d0 d1, k0_pay3 (acc m c (t0_14.val - 1) (Nat.lt_of_le_of_lt (Nat.sub_le _ _) t0_14.isLt)) (xb m c t0_14) (wb m c t0_14)
        = k0_pay3 (acc m c (t0_14.val - 1) (Nat.lt_of_le_of_lt (Nat.sub_le _ _) t0_14.isLt)) (win0_0.fill (grid0.coords t0_14) d0 (iblk m c 0 t0_14)) (win0_1.fill (grid0.coords t0_14) d1 (iblk m c 1 t0_14)) := fun d0 d1 =>
      pay3_fill (acc m c (t0_14.val - 1) (Nat.lt_of_le_of_lt (Nat.sub_le _ _) t0_14.isLt)) (fun _ => Scalar.ofBits .f32 0#32) d0 (iblk m c 0 t0_14) (fun _ => Scalar.ofBits .f32 0#32) d1 (iblk m c 1 t0_14)
    iintro ⟨HΦ, Ho, ⟨%d0, H0⟩, ⟨%d1, H1⟩, ⟨%d2, H2⟩⟩
    iapply (sound_body3 (F := F) c Set.univ (grid0.coords t0_14) c1 c2 c3 (cfg0.slots t0_14 0) (cfg0.slots t0_14 1) (cfg0.slots t0_14 2)
      (win0_0.fill (grid0.coords t0_14) d0 (iblk m c 0 t0_14)) (win0_1.fill (grid0.coords t0_14) d1 (iblk m c 1 t0_14)) (acc m c (t0_14.val - 1) (Nat.lt_of_le_of_lt (Nat.sub_le _ _) t0_14.isLt)) _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [e d0 d1]; iexact H2
  · have c1 : ¬k0_cond1 (grid0.coords t) = 1#1 := fun h => h0 ((hcond1 t).mp h)
    have c2 : k0_cond2 (grid0.coords t) = 1#1 := (hcond2 t).mpr ⟨h0, h14⟩
    have c3 : ¬k0_cond3 (grid0.coords t) = 1#1 := fun h => h14 ((hcond3 t).mp h)
    simp only [before_2_pos m c t h0]
    rw [acc_at_mid m c t h0 h14]
    have e : ∀ d0 d1, k0_pay2 (acc m c (t.val - 1) (Nat.lt_of_le_of_lt (Nat.sub_le _ _) t.isLt)) (xb m c t) (wb m c t)
        = k0_pay2 (acc m c (t.val - 1) (Nat.lt_of_le_of_lt (Nat.sub_le _ _) t.isLt)) (win0_0.fill (grid0.coords t) d0 (iblk m c 0 t)) (win0_1.fill (grid0.coords t) d1 (iblk m c 1 t)) := fun d0 d1 => by
      have e0 : xb m c t = win0_0.fill (grid0.coords t) d0 (iblk m c 0 t) := fill0_eq t h14 (fun _ => Scalar.ofBits .f32 0#32) d0 (iblk m c 0 t)
      have e1 : wb m c t = win0_1.fill (grid0.coords t) d1 (iblk m c 1 t) := fill1_eq t h14 (fun _ => Scalar.ofBits .f32 0#32) d1 (iblk m c 1 t)
      rw [e0, e1]
    iintro ⟨HΦ, Ho, ⟨%d0, H0⟩, ⟨%d1, H1⟩, ⟨%d2, H2⟩⟩
    iapply (sound_body2 (F := F) c Set.univ (grid0.coords t) c1 c2 c3 (cfg0.slots t 0) (cfg0.slots t 1) (cfg0.slots t 2)
      (win0_0.fill (grid0.coords t) d0 (iblk m c 0 t)) (win0_1.fill (grid0.coords t) d1 (iblk m c 1 t)) (acc m c (t.val - 1) (Nat.lt_of_le_of_lt (Nat.sub_le _ _) t.isLt)) _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [e d0 d1]; iexact H2

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and in every final state every array of the pipeline holds what the proof
    data computes and every other buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KDataBits.lean ====
/-
  What the kernel's staging buffers hold after its body, point by point.

  The kernel walks the 30522 table rows in fifteen blocks of 2048. At point `t` its first window holds columns
  2048·t … of the reshaped weights (2048 positions × 2048 rows), its second the matching 2048 table rows × 768
  columns, and its third — the whole 16 × 128 × 768 result, kept in place across the grid — the running sum of the
  block products. The last block overhangs the table by 198 rows; there a buffer's tail holds words nothing names,
  and the body replaces them by zeros before it multiplies. So the proof data names each input buffer on the part
  inside the arrays only (filled out with the zero word), and the result buffer as a function of those blocks:

    acc 0      = product of block 0
    acc (t+1)  = acc t + product of block t+1            (t + 1 < 14)
    acc 14     = acc 13 + product of block 14 with rows ≥ 1850 of both operands zeroed.
-/
import proofs.«113590_g2000002446326655_pallasbulk_315_20_alg».proof.Proof.Gen.Kernel.Frame
import proofs.«113590_g2000002446326655_pallasbulk_315_20_alg».proof.Proof.Gen.Kernel.Skeleton

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ)

/-- The first window's buffer at point `t` on the part inside the array — 2048 positions by the block's rows of
    the reshaped weights —, filled out with the zero word past the array's end. -/
def xb (c : Dev nD) (t : Fin cfg0.N) : Vec F S2048x2048 .f32 :=
  win0_0.fill (grid0.coords t) (fun _ => Scalar.ofBits .f32 0#32) (iblk m c 0 t)

/-- The second window's likewise: the block's table rows by 768 columns. -/
def wb (c : Dev nD) (t : Fin cfg0.N) : Vec F S2048x768 .f32 :=
  win0_1.fill (grid0.coords t) (fun _ => Scalar.ofBits .f32 0#32) (iblk m c 1 t)

/-- The running sum of block products the result's buffer holds after the body at position `n`. -/
def acc (c : Dev nD) : (n : ℕ) → n < cfg0.N → Vec F S16x128x768 .f32
  | 0, hn => k0_pay1 (xb m c ⟨0, hn⟩) (wb m c ⟨0, hn⟩)
  | n + 1, hn =>
    if n + 1 = 14 then k0_pay3 (acc c n (Nat.lt_of_succ_lt hn)) (xb m c ⟨n + 1, hn⟩) (wb m c ⟨n + 1, hn⟩)
    else k0_pay2 (acc c n (Nat.lt_of_succ_lt hn)) (xb m c ⟨n + 1, hn⟩) (wb m c ⟨n + 1, hn⟩)

theorem acc_zero (c : Dev nD) (hn : 0 < cfg0.N) : acc m c 0 hn = k0_pay1 (xb m c ⟨0, hn⟩) (wb m c ⟨0, hn⟩) := rfl

theorem acc_mid (c : Dev nD) (n : ℕ) (hn : n + 1 < cfg0.N) (h : n + 1 ≠ 14) :
    acc m c (n + 1) hn = k0_pay2 (acc m c n (Nat.lt_of_succ_lt hn)) (xb m c ⟨n + 1, hn⟩) (wb m c ⟨n + 1, hn⟩) := by
  rw [acc]; exact if_neg h

theorem acc_last (c : Dev nD) (n : ℕ) (hn : n + 1 < cfg0.N) (h : n + 1 = 14) :
    acc m c (n + 1) hn = k0_pay3 (acc m c n (Nat.lt_of_succ_lt hn)) (xb m c ⟨n + 1, hn⟩) (wb m c ⟨n + 1, hn⟩) := by
  rw [acc]; exact if_pos h

/-- The proof data of the one pipeline on core `c`: the arrays as the region finds them; after the body at point
    `t` the two input buffers at their blocks and the result's at the running sum; the region's own invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xb m c t
    | ⟨1, _⟩ => wb m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xb m c t := by dsimp only [dats]
theorem after_1 (c : Dev nD) (t : Fin cfg0.N) : (dats m 0 c).after 1 t = wb m c t := by dsimp only [dats]
theorem after_2 (c : Dev nD) (t : Fin cfg0.N) : (dats m 0 c).after 2 t = acc m c t.val t.isLt := by dsimp only [dats]

end Cert.Kernel.Hand

end
-- ==== Proof.KBodyABits.lean ====
/-
  The facts the body's proof rests on, none of them about memory.

  The grid coordinate k runs over 0 … 14. The body's three conditions hold at k = 0, at 0 < k < 14 and at k = 14,
  one at each point. A block of 2048 table rows starting at row 2048·k ends inside the 30522 rows unless k = 14,
  where only 30522 − 14·2048 = 1850 of its rows exist. So at k ≠ 14 a fetched buffer holds its block and nothing
  else, whatever it held before; at k = 14 it holds the block on rows (columns, for the first operand) below 1850
  and unnamed words from there on — and there the body replaces exactly the rows (columns) from 1850 on by zero
  before it multiplies. Either way the product the body forms does not depend on the unnamed words.
-/
import proofs.«113590_g2000002446326655_pallasbulk_315_20_alg».proof.Proof.KDataBits
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

variable (m : (ℓ : Loc nD τ sig) → Buf (Elt F) ℓ)

/-! ## The three cases in closed form -/

/-- The first condition holds at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second at the points strictly between the first and the last. -/
theorem hcond2 : ∀ t : Fin cfg0.N, k0_cond2 (grid0.coords t) = 1#1 ↔ (t.val ≠ 0 ∧ t.val ≠ 14) :=
  (by decide +kernel : ∀ t : Fin grid0.N, k0_cond2 (grid0.coords t) = 1#1 ↔ (t.val ≠ 0 ∧ t.val ≠ 14))
/-- The third at the last point only. -/
theorem hcond3 : ∀ t : Fin cfg0.N, k0_cond3 (grid0.coords t) = 1#1 ↔ t.val = 14 :=
  (by decide +kernel : ∀ t : Fin grid0.N, k0_cond3 (grid0.coords t) = 1#1 ↔ t.val = 14)

/-! ## Where the blocks end -/

/-- Before the last point the first operand's block lies inside its array on both axes, -/
theorem noclip0 : ∀ t : Fin cfg0.N, t.val ≠ 14 → ∀ a, win0_0.clip (grid0.coords t) a = none :=
  (by decide +kernel : ∀ t : Fin grid0.N, t.val ≠ 14 → ∀ a, win0_0.clip (grid0.coords t) a = none)
/-- and so does the second operand's. -/
theorem noclip1 : ∀ t : Fin cfg0.N, t.val ≠ 14 → ∀ a, win0_1.clip (grid0.coords t) a = none :=
  (by decide +kernel : ∀ t : Fin grid0.N, t.val ≠ 14 → ∀ a, win0_1.clip (grid0.coords t) a = none)
/-- At the last point the first operand's block has 1850 of its 2048 columns inside the array, -/
theorem xsize0_last : ∀ a, win0_0.xsize (grid0.coords t0_14) a = ![2048, 1850] a := by decide +kernel
/-- the second operand's 1850 of its 2048 rows. -/
theorem xsize1_last : ∀ a, win0_1.xsize (grid0.coords t0_14) a = ![1850, 768] a := by decide +kernel

/-- The result's window is the whole result: never cut, -/
theorem noclip2 : ∀ (i : grid0.Coords) a, (cfg0.win 2).clip i a = none := fun _ _ => rfl
/-- and, one of the three conditions holding at every point, stored into at every point. -/
theorem live2 : ∀ i : grid0.Coords, cfg0.idle 2 i = false := by decide +kernel

/-- A buffer filled with a block that lies inside its array holds the block, whatever it held. -/
theorem fill0_eq (t : Fin cfg0.N) (ht : t.val ≠ 14) (d d' : S2048x2048.Idx → Elt F .f32)
    (g : (win0_0.xblock (grid0.coords t)).Idx → Elt F .f32) :
    win0_0.fill (grid0.coords t) d g = win0_0.fill (grid0.coords t) d' g := by
  funext j
  have hm : win0_0.moved (grid0.coords t) j = true :=
    (win0_0.moved_iff _ j).mpr fun a => by have := (j a).isLt; unfold Window.xsize; rw [noclip0 t ht a]; exact this
  unfold Window.fill; rw [dif_pos hm, dif_pos hm]
theorem fill1_eq (t : Fin cfg0.N) (ht : t.val ≠ 14) (d d' : S2048x768.Idx → Elt F .f32)
    (g : (win0_1.xblock (grid0.coords t)).Idx → Elt F .f32) :
    win0_1.fill (grid0.coords t) d g = win0_1.fill (grid0.coords t) d' g := by
  funext j
  have hm : win0_1.moved (grid0.coords t) j = true :=
    (win0_1.moved_iff _ j).mpr fun a => by have := (j a).isLt; unfold Window.xsize; rw [noclip1 t ht a]; exact this
  unfold Window.fill; rw [dif_pos hm, dif_pos hm]

/-! ## The last point's masks -/

/-- A lane-wise choice depends on its first alternative only where the condition holds. -/
theorem select_congr_on {s : Shape} {α : Type} (c : IVec s 1) (a a' b : s.Idx → α) (h : ∀ i, c i = 1 → a i = a' i) :
    select c a b = select c a' b := by
  funext i
  show (if c i = 1 then a i else b i) = (if c i = 1 then a' i else b i)
  split
  · next hc => exact h i hc
  · rfl

/-- The first operand with its columns from 1850 on replaced by zero, as the last point's body forms it. -/
def mask0 (v13 : Vec F S2048x2048 .f32) : FVec F S2048x2048 .f32 :=
  have v14 : FVec F S2048x2048 .f32 := shapeCast S2048x2048 v13 shapeCasts_S2048x2048_S2048x2048
  have v16 : IVec S2048x2048 32 := iota .tc S2048x2048 32 [1] iota_S2048x2048_d1_w32
  have v18 : IVec S2048x2048 32 := broadcast S2048x2048 1850#32
  have v19 : IVec S2048x2048 1 := cmpi .slt v16 v18
  have cst : F .f32 := Scalar.ofBits .f32 0x00000000#32
  have v20 : FVec F S2048x2048 .f32 := broadcast S2048x2048 cst
  select v19 v14 v20

/-- The second operand with its rows from 1850 on replaced by zero. -/
def mask1 (v15 : Vec F S2048x768 .f32) : Vec F S2048x768 .f32 :=
  have v17 : IVec S2048x768 32 := iota .tc S2048x768 32 [0] iota_S2048x768_d0_w32
  have v22 : IVec S2048x768 32 := broadcast S2048x768 1850#32
  have v23 : IVec S2048x768 1 := cmpi .slt v17 v22
  have cst_12 : F .f32 := Scalar.ofBits .f32 0x00000000#32
  have v24 : FVec F S2048x768 .f32 := broadcast S2048x768 cst_12
  select v23 v15 v24

/-- What the last point's body stores, from the result so far and the two masked operands. -/
def core3 (v11 : Vec F S16x128x768 .f32) (v21 : FVec F S2048x2048 .f32) (v25 : Vec F S2048x768 .f32) : FVec F S16x128x768 .f32 :=
  have v12 : FVec F S16x128x768 .f32 := shapeCast S16x128x768 v11 shapeCasts_S16x128x768_S16x128x768
  have v26 : FVec F S2048x2048 .bf16 := truncf .bf16 v21 bitsLt_bf16_f32
  have v27 : FVec F S2048x768 .bf16 := truncf .bf16 v25 bitsLt_bf16_f32
  have cst_13 : FVec F S2048x768 .f32 := constant S2048x768 .f32 0x00000000#32
  have v28 : FVec F S2048x768 .f32 := matmul dot_S2048x2048_S2048x768_S2048x768_1_0_0_1_n_n none v26 v27 cst_13
  have v29 : FVec F S16x128x768 .f32 := shapeCast S16x128x768 v28 shapeCasts_S2048x768_S16x128x768
  have v30 : FVec F S16x128x768 .f32 := addf v12 v29
  v30

/-- The last point's payload reads its operands through the masks only. -/
theorem pay3_eq (v11 : Vec F S16x128x768 .f32) (v13 : Vec F S2048x2048 .f32) (v15 : Vec F S2048x768 .f32) :
    k0_pay3 v11 v13 v15 = core3 v11 (mask0 v13) (mask1 v15) := rfl

/-- Where the first mask's condition holds the column is below 1850: a signed comparison of a column number below
    2048 with 1850, checked column by column. -/
theorem mask0_lt (j : S2048x2048.Idx)
    (h : cmpi .slt (iota .tc S2048x2048 32 [1] iota_S2048x2048_d1_w32) (broadcast S2048x2048 1850#32) j = 1) :
    (j 1).val < 1850 :=
  (by decide +kernel : ∀ n : Fin 2048, IntOp.cmpi .slt (BitVec.ofNat 32 (0 * 2048 + n.val)) (1850#32) = 1#1 → n.val < 1850) (j 1) h

/-- Where the second mask's holds the row is below 1850. -/
theorem mask1_lt (j : S2048x768.Idx)
    (h : cmpi .slt (iota .tc S2048x768 32 [0] iota_S2048x768_d0_w32) (broadcast S2048x768 1850#32) j = 1) :
    (j 0).val < 1850 :=
  (by decide +kernel : ∀ n : Fin 2048, IntOp.cmpi .slt (BitVec.ofNat 32 (0 * 2048 + n.val)) (1850#32) = 1#1 → n.val < 1850) (j 0) h

/-- The masked first operand at the last point does not depend on what its buffer held past the array's end: the
    mask keeps the columns below 1850, which are the ones the fetch lands. -/
theorem mask0_fill (d d' : S2048x2048.Idx → Elt F .f32) (g : (win0_0.xblock (grid0.coords t0_14)).Idx → Elt F .f32) :
    mask0 (win0_0.fill (grid0.coords t0_14) d g) = mask0 (win0_0.fill (grid0.coords t0_14) d' g) := by
  unfold mask0
  refine select_congr_on _ _ _ _ fun j hc => ?_
  rw [shapeCast_self, shapeCast_self]
  have hlt : (j 1).val < 1850 := mask0_lt j hc
  have hm : win0_0.moved (grid0.coords t0_14) j = true := (win0_0.moved_iff _ j).mpr fun a => by
    rw [xsize0_last a]
    match a with
    | ⟨0, _⟩ => exact (j 0).isLt
    | ⟨1, _⟩ => exact hlt
  unfold Window.fill; rw [dif_pos hm, dif_pos hm]

/-- The masked second operand likewise: the mask keeps the rows below 1850. -/
theorem mask1_fill (d d' : S2048x768.Idx → Elt F .f32) (g : (win0_1.xblock (grid0.coords t0_14)).Idx → Elt F .f32) :
    mask1 (win0_1.fill (grid0.coords t0_14) d g) = mask1 (win0_1.fill (grid0.coords t0_14) d' g) := by
  unfold mask1
  refine select_congr_on _ _ _ _ fun j hc => ?_
  have hlt : (j 0).val < 1850 := mask1_lt j hc
  have hm : win0_1.moved (grid0.coords t0_14) j = true := (win0_1.moved_iff _ j).mpr fun a => by
    rw [xsize1_last a]
    match a with
    | ⟨0, _⟩ => exact hlt
    | ⟨1, _⟩ => exact (j 1).isLt
  unfold Window.fill; rw [dif_pos hm, dif_pos hm]

/-- So the last point's payload is the same whatever the two buffers held past the arrays' end. -/
theorem pay3_fill (A : Vec F S16x128x768 .f32) (d0 d0' : S2048x2048.Idx → Elt F .f32)
    (g0 : (win0_0.xblock (grid0.coords t0_14)).Idx → Elt F .f32) (d1 d1' : S2048x768.Idx → Elt F .f32)
    (g1 : (win0_1.xblock (grid0.coords t0_14)).Idx → Elt F .f32) :
    k0_pay3 A (win0_0.fill (grid0.coords t0_14) d0 g0) (win0_1.fill (grid0.coords t0_14) d1 g1)
      = k0_pay3 A (win0_0.fill (grid0.coords t0_14) d0' g0) (win0_1.fill (grid0.coords t0_14) d1' g1) := by
  rw [pay3_eq, pay3_eq, mask0_fill d0 d0' g0, mask1_fill d1 d1' g1]

/-! ## The running sum at a point -/

theorem acc_at_zero (c : Dev nD) (t : Fin cfg0.N) (h0 : t.val = 0) :
    acc m c t.val t.isLt = k0_pay1 (xb m c t) (wb m c t) := by
  obtain ⟨n, hn⟩ := t
  cases n with
  | zero => exact acc_zero m c hn
  | succ n => exact absurd h0 (Nat.succ_ne_zero n)

theorem acc_at_mid (c : Dev nD) (t : Fin cfg0.N) (h0 : t.val ≠ 0) (h14 : t.val ≠ 14) :
    acc m c t.val t.isLt
      = k0_pay2 (acc m c (t.val - 1) (Nat.lt_of_le_of_lt (Nat.sub_le _ _) t.isLt)) (xb m c t) (wb m c t) := by
  obtain ⟨n, hn⟩ := t
  cases n with
  | zero => exact absurd rfl h0
  | succ n => exact acc_mid m c n hn h14

theorem acc_at_last (c : Dev nD) (t : Fin cfg0.N) (h14 : t.val = 14) :
    acc m c t.val t.isLt
      = k0_pay3 (acc m c (t.val - 1) (Nat.lt_of_le_of_lt (Nat.sub_le _ _) t.isLt)) (xb m c t) (wb m c t) := by
  obtain ⟨n, hn⟩ := t
  cases n with
  | zero => exact absurd h14 (show ¬(0 : ℕ) = 14 by decide)
  | succ n => exact acc_last m c n hn h14

/-! ## What the body finds in each buffer -/

/-- The first operand's buffer, fetched at every point: its block on the part inside the array, anything beyond. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]; try rfl
/-- The second operand's likewise. -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]; try rfl
/-- The result's buffer at the first point: anything. -/
theorem before_2_zero (c : Dev nD) (t : Fin cfg0.N) (h0 : t.val = 0) (d) : (dats m 0 c).before 2 t d = d :=
  (dats m 0 c).before_out_reset 2 rfl t (.inl h0) d
/-- At a later point: the running sum the point before left, the buffer not having been written back meanwhile. -/
theorem before_2_pos (c : Dev nD) (t : Fin cfg0.N) (h0 : t.val ≠ 0) (d) :
    (dats m 0 c).before 2 t d = acc m c (t.val - 1) (Nat.lt_of_le_of_lt (Nat.sub_le _ _) t.isLt) := by
  have hN : t.val < 15 := lt_of_lt_of_eq t.isLt N_0
  have hfl : (cfg0.win 2).flush ⟨t.val - 1, Nat.lt_of_le_of_lt (Nat.sub_le _ _) t.isLt⟩ = false :=
    Bool.eq_false_iff.mpr fun h => by
      have := (flush0_2 _).mp h
      dsimp only at this; omega
  rw [(dats m 0 c).before_out_kept 2 rfl t h0 hfl live2 noclip2 d, after_2]

end Cert.Kernel.Hand

end
-- ==== Proof.KBodyBits.lean ====
/-
  The kernel's body at every grid point, and the run of the whole program.

  At each point the body finds the two operand buffers just fetched — the block on the part inside the array,
  words nothing names beyond it — and the result's buffer at the running sum the point before left (at anything,
  at the first point). Exactly one of its three conditions holds: at the first point it stores the product of the
  two blocks; strictly between the first and the last it stores the sum so far plus the product; at the last it
  stores the sum so far plus the product of the operands with their rows (columns) from 1850 on set to zero. In
  each case what it stores is the running sum at that point, whatever the unnamed words were: before the last
  point there are none, and at the last the masks discard them. The operand buffers it only reads. The result's
  buffer is written back after the last point only, so between points it keeps the sum.
-/
import proofs.«113590_g2000002446326655_pallasbulk_315_20_alg».proof.Proof.KBodyABits
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole loads and stores on the staging buffers

Every access of the body is at offsets zero and the buffer's own sizes: a load reads the buffer's contents, an
unmasked store replaces them. -/

theorem hz2 : (![0, 0] : Fin 2 → Nat) = fun _ => 0 := funext fun a => by fin_cases a <;> rfl
theorem hz3 : (![0, 0, 0] : Fin 3 → Nat) = fun _ => 0 := funext fun a => by fin_cases a <;> rfl

theorem rd0_0 : (Memref.whole cc0_stg0_0 : Memref sig .tc _ _ _).view.readAt (Elt F) (Rect.unit (s := S2048x2048) ![0, 0] S2048x2048.size
    inb_S2048x2048_S2048x2048_0_0).toLoadRect = id := funext (Memref.readAt_unit_zero (Elt F) cc0_stg0_0 hz2 _)
theorem rd0_1 : (Memref.whole cc0_stg0_1 : Memref sig .tc _ _ _).view.readAt (Elt F) (Rect.unit (s := S2048x2048) ![0, 0] S2048x2048.size
    inb_S2048x2048_S2048x2048_0_0).toLoadRect = id := funext (Memref.readAt_unit_zero (Elt F) cc0_stg0_1 hz2 _)
theorem rd1_0 : (Memref.whole cc0_stg1_0 : Memref sig .tc _ _ _).view.readAt (Elt F) (Rect.unit (s := S2048x768) ![0, 0] S2048x768.size
    inb_S2048x768_S2048x768_0_0).toLoadRect = id := funext (Memref.readAt_unit_zero (Elt F) cc0_stg1_0 hz2 _)
theorem rd1_1 : (Memref.whole cc0_stg1_1 : Memref sig .tc _ _ _).view.readAt (Elt F) (Rect.unit (s := S2048x768) ![0, 0] S2048x768.size
    inb_S2048x768_S2048x768_0_0).toLoadRect = id := funext (Memref.readAt_unit_zero (Elt F) cc0_stg1_1 hz2 _)
theorem rd2_0 : (Memref.whole cc0_stg2_0 : Memref sig .tc _ _ _).view.readAt (Elt F) (Rect.unit (s := S16x128x768) ![0, 0, 0] S16x128x768.size
    inb_S16x128x768_S16x128x768_0_0_0).toLoadRect = id := funext (Memref.readAt_unit_zero (Elt F) cc0_stg2_0 hz3 _)
theorem wr2_0 : ∀ f w, (((Memref.whole cc0_stg2_0).access (Rect.unit (s := S16x128x768) ![0, 0, 0] S16x128x768.size
    inb_S16x128x768_S16x128x768_0_0_0)) : View sig .tc _ _ _).write (Elt F) f w Finset.univ = w :=
  Memref.write_access_unit_zero_univ (Elt F) cc0_stg2_0 hz3 _

/-! ## The body in each of its three cases

On any of the operands' two buffers each and the result's one, holding `X0`, `X1`, `X2`. -/

/-- At the first point: the operands are loaded, the result's buffer is loaded and not used, and the product of the
    operands is stored over it. -/
theorem sound_body1 (c : Dev nD) (E : Set ℕ) (i : grid0.Coords) (h1 : k0_cond1 i = 1#1) (h2 : ¬k0_cond2 i = 1#1) (h3 : ¬k0_cond3 i = 1#1)
    (s0 : Fin 2) (s1 : Fin 2) (s2 : Fin 1)
    (X0 : Vec F S2048x2048 .f32) (X1 : Vec F S2048x768 .f32) (X2 : Vec F S16x128x768 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) Variants.none c none) E
          (cc0__mm_kernel i (stage0_0 s0) (hstage0_0 s0) (stage0_1 s1) (hstage0_1 s1) (stage0_2 s2) (hstage0_2 s2)) K := by
  fin_cases s0 <;> fin_cases s1 <;> fin_cases s2
  all_goals
    simp only [owns_whole_eq, cc0__mm_kernel_eq_skeleton]; unfold cc0__mm_kernel_skel
    simp only [dif_pos h1, dif_neg h2, dif_neg h3, Prog.lift, Prog.bind_op, Prog.bind_ret]
    iintro ⟨⟨⟨%f0, %hf0, H0⟩, ⟨%f1, %hf1, H1⟩, ⟨%f2, %hf2, H2⟩⟩, Hk⟩
    sl_steps
    iapply Hk
    first
      | rw [rd0_0, rd1_0, wr2_0]
      | rw [rd0_0, rd1_1, wr2_0]
      | rw [rd0_1, rd1_0, wr2_0]
      | rw [rd0_1, rd1_1, wr2_0]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

/-- Strictly between the first and the last point: the result's buffer and the operands are loaded, and the sum of
    the former and the product of the latter is stored over the result's buffer. -/
theorem sound_body2 (c : Dev nD) (E : Set ℕ) (i : grid0.Coords) (h1 : ¬k0_cond1 i = 1#1) (h2 : k0_cond2 i = 1#1) (h3 : ¬k0_cond3 i = 1#1)
    (s0 : Fin 2) (s1 : Fin 2) (s2 : Fin 1)
    (X0 : Vec F S2048x2048 .f32) (X1 : Vec F S2048x768 .f32) (X2 : Vec F S16x128x768 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay2 X2 X0 X1)) -∗ K ⟨⟩))
      ⊢ wp frame (wpE (defs₀ (F := F)) Variants.none c none) E
          (cc0__mm_kernel i (stage0_0 s0) (hstage0_0 s0) (stage0_1 s1) (hstage0_1 s1) (stage0_2 s2) (hstage0_2 s2)) K := by
  fin_cases s0 <;> fin_cases s1 <;> fin_cases s2
  all_goals
    simp only [owns_whole_eq, cc0__mm_kernel_eq_skeleton]; unfold cc0__mm_kernel_skel
    simp only [dif_neg h1, dif_pos h2, dif_neg h3, Prog.lift, Prog.bind_op, Prog.bind_ret]
    iintro ⟨⟨⟨%f0, %hf0, H0⟩, ⟨%f1, %hf1, H1⟩, ⟨%f2, %hf2, H2⟩⟩, Hk⟩
    sl_steps
    iapply Hk
    first
      | rw [rd2_0, rd0_0, rd1_0, wr2_0]
      | rw [rd2_0, rd0_0, rd1_1, wr2_0]
      | rw [rd2_0, rd0_1, rd1_0, wr2_0]
      | rw [rd2_0, rd0_1, rd1_1, wr2_0]
    isplitl [H0]
    · iexists f0; isplitr; · ipureintro; exact hf0
      iexact H0
    isplitl [H1]
    · iexists f1; isplitr; · ipureintro; exact hf1
      iexact H1
    · iexists k0_pay2 f2 f0 f1; isplitr; · ipureintro; rw [hf0, hf1, hf2]
      iexact H2

/-- At the last point: the same with the operands masked. -/
theorem sound_body3 (c : Dev nD) (E : Set ℕ) (i : grid0.Coords) (h1 : ¬k0_cond1 i = 1#1) (h2 : ¬k0_cond2 i = 1#1) (h3 : k0_cond3 i = 1#1)
    (s0 : Fin 2) (s1 : Fin 2) (s2 : Fin 1)
    (X0 : Vec F S2048x2048 .f32) (X1 : Vec F S2048x768 .f32) (X2 : Vec F S16x128x768 .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay3 X2 X0 X1)) -∗ K ⟨⟩))
      ⊢ wp frame (wpE (defs₀ (F := F)) Variants.none c none) E
          (cc0__mm_kernel i (stage0_0 s0) (hstage0_0 s0) (stage0_1 s1) (hstage0_1 s1) (stage0_2 s2) (hstage0_2 s2)) K := by
  fin_cases s0 <;> fin_cases s1 <;> fin_cases s2
  all_goals
    simp only [owns_whole_eq, cc0__mm_kernel_eq_skeleton]; unfold cc0__mm_kernel_skel
    simp only [dif_neg h1, dif_neg h2, dif_pos h3, Prog.lift, Prog.bind_op, Prog.bind_ret]
    iintro ⟨⟨⟨%f0, %hf0, H0⟩, ⟨%f1, %hf1, H1⟩, ⟨%f2, %hf2, H2⟩⟩, Hk⟩
    sl_steps
    iapply Hk
    first
      | rw [rd2_0, rd0_0, rd1_0, wr2_0]
      | rw [rd2_0, rd0_0, rd1_1, wr2_0]
      | rw [rd2_0, rd0_1, rd1_0, wr2_0]
      | rw [rd2_0, rd0_1, rd1_1, wr2_0]
    isplitl [H0]
    · iexists f0; isplitr; · ipureintro; exact hf0
      iexact H0
    isplitl [H1]
    · iexists f1; isplitr; · ipureintro; exact hf1
      iexact H1
    · iexists k0_pay3 f2 f0 f1; isplitr; · ipureintro; rw [hf0, hf1, hf2]
      iexact H2

/-! ## The body obligation -/

/-- The operands' windows are stored into at no point's expense: never idle. -/
theorem live0 : ∀ i : grid0.Coords, cfg0.idle 0 i = false := fun _ => rfl
theorem live1 : ∀ i : grid0.Coords, cfg0.idle 1 i = false := fun _ => rfl

/-- What the body is called with at point `t`: the region's invariant, what the core owes, and each window's
    current buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the operands' buffers stated on the part inside the arrays, the result's exactly. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) : (dats m 0 c).leaves 0 t
    = iprop(∃ d, owns (c : Thread nD τ) (st0_0 t) fullShare (win0_0.fill (grid0.coords t) d (win0_0.cut (grid0.coords t) (xb m c t)))) := by
  unfold Dat.leaves; rw [live0 (grid0.coords t)]; try rw [after_0]
  try rfl
theorem leaves_1 (c : Dev nD) (t : Fin cfg0.N) : (dats m 0 c).leaves 1 t
    = iprop(∃ d, owns (c : Thread nD τ) (st0_1 t) fullShare (win0_1.fill (grid0.coords t) d (win0_1.cut (grid0.coords t) (wb m c t)))) := by
  unfold Dat.leaves; rw [live1 (grid0.coords t)]; try rw [after_1]
  try rfl
theorem leaves_2 (c : Dev nD) (t : Fin cfg0.N) : (dats m 0 c).leaves 2 t
    = owns (c : Thread nD τ) (st0_2 t) fullShare (acc m c t.val t.isLt) := by
  unfold Dat.leaves; rw [live2 (grid0.coords t)]; try rw [after_2]
  try rfl

/-- The body at any point: by the point's case. The operands' buffers come back as found, which on the part inside
    the arrays is their blocks; the result's comes back at the case's payload of what was found, which is the running
    sum at the point (`fill0_eq`, `fill1_eq` before the last point, `pay3_fill` at it). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_0, leaves_1, leaves_2]
  rw [show (dats m 0 c).Φ t.succ = (dats m 0 c).Φ t.castSucc from rfl,
    show (dats m 0 c).owesAt () t.succ = (dats m 0 c).owesAt () t.castSucc from rfl]
  simp only [before_0, before_1]
  have hN : t.val < 15 := lt_of_lt_of_eq t.isLt N_0
  rw [show win0_0.cut (grid0.coords t) (xb m c t) = iblk m c 0 t from win0_0.cut_fill _ _ _,
    show win0_1.cut (grid0.coords t) (wb m c t) = iblk m c 1 t from win0_1.cut_fill _ _ _]
  by_cases h0 : t.val = 0
  · have h14 : t.val ≠ 14 := by omega
    have c1 : k0_cond1 (grid0.coords t) = 1#1 := (hcond1 t).mpr h0
    have c2 : ¬k0_cond2 (grid0.coords t) = 1#1 := fun h => ((hcond2 t).mp h).1 h0
    have c3 : ¬k0_cond3 (grid0.coords t) = 1#1 := fun h => h14 ((hcond3 t).mp h)
    simp only [before_2_zero m c t h0]
    rw [acc_at_zero m c t h0]
    have e : ∀ d0 d1, k0_pay1 (xb m c t) (wb m c t) = k0_pay1 (win0_0.fill (grid0.coords t) d0 (iblk m c 0 t)) (win0_1.fill (grid0.coords t) d1 (iblk m c 1 t)) := fun d0 d1 => by
      have e0 : xb m c t = win0_0.fill (grid0.coords t) d0 (iblk m c 0 t) := fill0_eq t h14 (fun _ => Scalar.ofBits .f32 0#32) d0 (iblk m c 0 t)
      have e1 : wb m c t = win0_1.fill (grid0.coords t) d1 (iblk m c 1 t) := fill1_eq t h14 (fun _ => Scalar.ofBits .f32 0#32) d1 (iblk m c 1 t)
      rw [e0, e1]
    iintro ⟨HΦ, Ho, ⟨%d0, H0⟩, ⟨%d1, H1⟩, ⟨%d2, H2⟩⟩
    iapply (sound_body1 (F := F) c Set.univ (grid0.coords t) c1 c2 c3 (cfg0.slots t 0) (cfg0.slots t 1) (cfg0.slots t 2)
      (win0_0.fill (grid0.coords t) d0 (iblk m c 0 t)) (win0_1.fill (grid0.coords t) d1 (iblk m c 1 t)) d2 _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [e d0 d1]; iexact H2
  by_cases h14 : t.val = 14
  · obtain rfl : t = t0_14 := Fin.ext h14
    have c1 : ¬k0_cond1 (grid0.coords t0_14) = 1#1 := fun h => h0 ((hcond1 t0_14).mp h)
    have c2 : ¬k0_cond2 (grid0.coords t0_14) = 1#1 := fun h => ((hcond2 t0_14).mp h).2 h14
    have c3 : k0_cond3 (grid0.coords t0_14) = 1#1 := (hcond3 t0_14).mpr h14
    simp only [before_2_pos m c t0_14 h0]
    rw [acc_at_last m c t0_14 h14]
    have e : ∀ d0 d1, k0_pay3 (acc m c (t0_14.val - 1) (Nat.lt_of_le_of_lt (Nat.sub_le _ _) t0_14.isLt)) (xb m c t0_14) (wb m c t0_14)
        = k0_pay3 (acc m c (t0_14.val - 1) (Nat.lt_of_le_of_lt (Nat.sub_le _ _) t0_14.isLt)) (win0_0.fill (grid0.coords t0_14) d0 (iblk m c 0 t0_14)) (win0_1.fill (grid0.coords t0_14) d1 (iblk m c 1 t0_14)) := fun d0 d1 =>
      pay3_fill (acc m c (t0_14.val - 1) (Nat.lt_of_le_of_lt (Nat.sub_le _ _) t0_14.isLt)) (fun _ => Scalar.ofBits .f32 0#32) d0 (iblk m c 0 t0_14) (fun _ => Scalar.ofBits .f32 0#32) d1 (iblk m c 1 t0_14)
    iintro ⟨HΦ, Ho, ⟨%d0, H0⟩, ⟨%d1, H1⟩, ⟨%d2, H2⟩⟩
    iapply (sound_body3 (F := F) c Set.univ (grid0.coords t0_14) c1 c2 c3 (cfg0.slots t0_14 0) (cfg0.slots t0_14 1) (cfg0.slots t0_14 2)
      (win0_0.fill (grid0.coords t0_14) d0 (iblk m c 0 t0_14)) (win0_1.fill (grid0.coords t0_14) d1 (iblk m c 1 t0_14)) (acc m c (t0_14.val - 1) (Nat.lt_of_le_of_lt (Nat.sub_le _ _) t0_14.isLt)) _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [e d0 d1]; iexact H2
  · have c1 : ¬k0_cond1 (grid0.coords t) = 1#1 := fun h => h0 ((hcond1 t).mp h)
    have c2 : k0_cond2 (grid0.coords t) = 1#1 := (hcond2 t).mpr ⟨h0, h14⟩
    have c3 : ¬k0_cond3 (grid0.coords t) = 1#1 := fun h => h14 ((hcond3 t).mp h)
    simp only [before_2_pos m c t h0]
    rw [acc_at_mid m c t h0 h14]
    have e : ∀ d0 d1, k0_pay2 (acc m c (t.val - 1) (Nat.lt_of_le_of_lt (Nat.sub_le _ _) t.isLt)) (xb m c t) (wb m c t)
        = k0_pay2 (acc m c (t.val - 1) (Nat.lt_of_le_of_lt (Nat.sub_le _ _) t.isLt)) (win0_0.fill (grid0.coords t) d0 (iblk m c 0 t)) (win0_1.fill (grid0.coords t) d1 (iblk m c 1 t)) := fun d0 d1 => by
      have e0 : xb m c t = win0_0.fill (grid0.coords t) d0 (iblk m c 0 t) := fill0_eq t h14 (fun _ => Scalar.ofBits .f32 0#32) d0 (iblk m c 0 t)
      have e1 : wb m c t = win0_1.fill (grid0.coords t) d1 (iblk m c 1 t) := fill1_eq t h14 (fun _ => Scalar.ofBits .f32 0#32) d1 (iblk m c 1 t)
      rw [e0, e1]
    iintro ⟨HΦ, Ho, ⟨%d0, H0⟩, ⟨%d1, H1⟩, ⟨%d2, H2⟩⟩
    iapply (sound_body2 (F := F) c Set.univ (grid0.coords t) c1 c2 c3 (cfg0.slots t 0) (cfg0.slots t 1) (cfg0.slots t 2)
      (win0_0.fill (grid0.coords t) d0 (iblk m c 0 t)) (win0_1.fill (grid0.coords t) d1 (iblk m c 1 t)) (acc m c (t.val - 1) (Nat.lt_of_le_of_lt (Nat.sub_le _ _) t.isLt)) _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [e d0 d1]; iexact H2

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and in every final state every array of the pipeline holds what the proof
    data computes and every other buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.KPay.lean ====
/-
  The kernel body's three stored values, read at an index, on the extended reals.

  A point's body multiplies a block of 2048 positions × 2048 rows by a block of 2048 rows × 768 columns into a zero
  accumulator and views the 2048 × 768 product as 16 × 128 × 768: position (b, s) is row b·128 + s. At the extended
  reals the change of float format before the product is the identity, so the product at (b, s, h) is the plain sum
  Σ_k X(b·128 + s, k) · W(k, h). The first point stores it; the middle points add it to what the buffer held; the last
  point first replaces columns k ≥ 1850 of X and rows k ≥ 1850 of W by zero.
-/
import proofs.«113590_g2000002446326655_pallasbulk_315_20_alg».proof.Proof.Gen.KernelIdeal.Skeleton
import proofs.«113590_g2000002446326655_pallasbulk_315_20_alg».proof.Proof.LibPlainDot
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Cert.Lib.PlainDot

/-- Position (b, s) of the 16 × 128 grid of positions as a row of the 2048-row matrices. -/
def row (b : Fin 16) (s : Fin 128) : Fin 2048 := ⟨b.val * 128 + s.val, by have := b.isLt; have := s.isLt; omega⟩

/-- The printed dimension record contracts the left operand's columns with the right operand's rows. -/
theorem reads : Reads (R := 2048) (K := 2048) (C := 768) dot_S2048x2048_S2048x768_S2048x768_1_0_0_1_n_n where
  rank := rfl
  size := rfl
  lhs0 := fun _ _ => rfl
  lhs1 := fun i q => dot_S2048x2048_S2048x768_S2048x768_1_0_0_1_n_n.lhsIdx_val_of_single (cl := 1) rfl i q
  rhs0 := fun i q => dot_S2048x2048_S2048x768_S2048x768_1_0_0_1_n_n.rhsIdx_val_of_single (cr := 0) rfl i q
  rhs1 := fun _ _ => rfl

/-- The product of two blocks viewed as 16 × 128 × 768, at (b, s, h). -/
theorem prod_apply (X : FVec Ideal S2048x2048 .bf16) (W : FVec Ideal S2048x768 .bf16) (b : Fin 16) (s : Fin 128) (h : Fin 768) :
    shapeCast S16x128x768 (matmul (F := Ideal) dot_S2048x2048_S2048x768_S2048x768_1_0_0_1_n_n none X W
        (constant (F := Ideal) S2048x768 .f32 0x00000000#32)) shapeCasts_S2048x768_S16x128x768 (ix3 b s h)
      = ∑ k : Fin 2048, X (ix2 (row b s) k) * W (ix2 k h) := by
  refine (shapeCast_apply _ shapeCasts_S2048x768_S16x128x768 (ix3 b s h) (ix2 (row b s) h) ?_).trans ?_
  · rw [Shape.rowMajor_val_two, Shape.rowMajor_val_three]; rfl
  · exact matmul_zero_apply reads none X W (row b s) h

/-- The first point's stored value. -/
theorem pay1_apply (X : Vec Ideal S2048x2048 .f32) (W : Vec Ideal S2048x768 .f32) (b : Fin 16) (s : Fin 128) (h : Fin 768) :
    k0_pay1 (F := Ideal) X W (ix3 b s h) = ∑ k : Fin 2048, X (ix2 (row b s) k) * W (ix2 k h) := by
  unfold k0_pay1
  refine (prod_apply _ _ b s h).trans ?_
  refine Finset.sum_congr rfl fun k _ => ?_
  exact congrArg₂ (· * ·) (congrFun (shapeCast_self X shapeCasts_S2048x2048_S2048x2048) (ix2 (row b s) k)) rfl

/-- A middle point's stored value: what the buffer held plus the blocks' product. -/
theorem pay2_apply (A : Vec Ideal S16x128x768 .f32) (X : Vec Ideal S2048x2048 .f32) (W : Vec Ideal S2048x768 .f32)
    (b : Fin 16) (s : Fin 128) (h : Fin 768) :
    k0_pay2 (F := Ideal) A X W (ix3 b s h) = A (ix3 b s h) + ∑ k : Fin 2048, X (ix2 (row b s) k) * W (ix2 k h) := by
  unfold k0_pay2
  refine (addf_apply _ _ (ix3 b s h)).trans ?_
  refine congrArg₂ (· + ·) (congrFun (shapeCast_self A shapeCasts_S16x128x768_S16x128x768) (ix3 b s h)) ?_
  refine (prod_apply _ _ b s h).trans ?_
  refine Finset.sum_congr rfl fun k _ => ?_
  exact congrArg₂ (· * ·) (congrFun (shapeCast_self X shapeCasts_S2048x2048_S2048x2048) (ix2 (row b s) k)) rfl

/-- The last point's test "coordinate below 1850", decided on every coordinate of a block. -/
theorem below_iff : ∀ k : Fin 2048, IntOp.cmpi .slt (BitVec.ofNat 32 k.val) 1850#32 = 1 ↔ k.val < 1850 := by
  decide +kernel

/-- A value kept below coordinate 1850 and replaced by `z` from there on. -/
theorem keep_below {α : Type} (k : Fin 2048) (x z : α) :
    Scalar.select (IntOp.cmpi .slt (BitVec.ofNat 32 k.val) 1850#32) x z = if k.val < 1850 then x else z := by
  unfold Scalar.select
  exact if_congr (below_iff k) rfl rfl

/-- The last point's stored value: what the buffer held plus the product of the blocks with columns (of the first)
    and rows (of the second) from 1850 on replaced by zero. -/
theorem pay3_apply (A : Vec Ideal S16x128x768 .f32) (X : Vec Ideal S2048x2048 .f32) (W : Vec Ideal S2048x768 .f32)
    (b : Fin 16) (s : Fin 128) (h : Fin 768) :
    k0_pay3 (F := Ideal) A X W (ix3 b s h)
      = A (ix3 b s h) + ∑ k : Fin 2048, (if k.val < 1850 then X (ix2 (row b s) k) else 0) * (if k.val < 1850 then W (ix2 k h) else 0) := by
  unfold k0_pay3
  refine (addf_apply _ _ (ix3 b s h)).trans ?_
  refine congrArg₂ (· + ·) (congrFun (shapeCast_self A shapeCasts_S16x128x768_S16x128x768) (ix3 b s h)) ?_
  refine (prod_apply _ _ b s h).trans ?_
  refine Finset.sum_congr rfl fun k _ => ?_
  refine congrArg₂ (· * ·) ?_ ?_
  · show Scalar.select (IntOp.cmpi .slt (iota .tc S2048x2048 32 [1] iota_S2048x2048_d1_w32 (ix2 (row b s) k)) 1850#32)
        (shapeCast S2048x2048 X shapeCasts_S2048x2048_S2048x2048 (ix2 (row b s) k)) (Ideal.ofBits .f32 0x00000000#32) = _
    rw [iota_single_apply, shapeCast_self, Ideal.ofBits_zero_f32]
    exact keep_below k _ _
  · show Scalar.select (IntOp.cmpi .slt (iota .tc S2048x768 32 [0] iota_S2048x768_d0_w32 (ix2 k h)) 1850#32)
        (W (ix2 k h)) (Ideal.ofBits .f32 0x00000000#32) = _
    rw [iota_single_apply, Ideal.ofBits_zero_f32]
    exact keep_below k _ _

end Cert.KernelIdeal.Val

end
-- ==== Proof.KBlocks.lean ====
/-
  The kernel's input blocks, read at an index.

  At point `t` the first window's block is columns 2048·t … 2048·t + 2047 of the 2048 × 30522 matrix of weights, the
  second's rows 2048·t … of the 30522 × 768 table; the last block (t = 14) reaches past row 30522 and only its first
  1850 rows are fetched. Filled out with a default `d`, a buffer therefore reads the array at row 2048·t + k where that
  is below 30522 and `d` beyond. With the zero default this is the array's row extended by zero — the form in which
  the fifteen block products add up to one sum over the 30522 rows.
-/
import proofs.«113590_g2000002446326655_pallasbulk_315_20_alg».proof.Proof.KData
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Window)

/-- The first window's index map and fetched sizes, decided over the grid: block (0, t); all 2048 positions, and
    2048 rows except at the last point, where 1850 remain. -/
theorem win0_facts : ∀ t : Fin cfg0.N,
    win0_0.index t (0 : Fin 2) = 0 ∧ win0_0.index t (1 : Fin 2) = t.val
    ∧ win0_0.xsize (grid0.coords t) (0 : Fin 2) = 2048
    ∧ (t.val = 14 → win0_0.xsize (grid0.coords t) (1 : Fin 2) = 1850)
    ∧ (t.val ≠ 14 → win0_0.xsize (grid0.coords t) (1 : Fin 2) = 2048) :=
  (by decide +kernel : ∀ t : Fin grid0.N, _)

/-- The second window's: block (t, 0); all 768 columns. -/
theorem win1_facts : ∀ t : Fin cfg0.N,
    win0_1.index t (0 : Fin 2) = t.val ∧ win0_1.index t (1 : Fin 2) = 0
    ∧ win0_1.xsize (grid0.coords t) (1 : Fin 2) = 768
    ∧ (t.val = 14 → win0_1.xsize (grid0.coords t) (0 : Fin 2) = 1850)
    ∧ (t.val ≠ 14 → win0_1.xsize (grid0.coords t) (0 : Fin 2) = 2048) :=
  (by decide +kernel : ∀ t : Fin grid0.N, _)

/-- The first window's buffer after a fetch of an array `A` over contents `d`, at position `r` and row `k` of the
    block: `A` at row 2048·t + k while that is a row of the array, `d` beyond. -/
theorem fill0_apply (A : S2048x30522.Idx → EReal) (t : Fin cfg0.N) (d : S2048x2048.Idx → EReal) (r k : Fin 2048) :
    win0_0.fill (grid0.coords t) d ((win0_0.blk t).view.read (Elt Ideal) A) (ix2 r k)
      = if h : t.val * 2048 + k.val < 30522 then A (ix2 r ⟨t.val * 2048 + k.val, h⟩) else d (ix2 r k) := by
  obtain ⟨e0, e1, s0, s14, sne⟩ := win0_facts t
  have hN : t.val < 15 := lt_of_lt_of_eq t.isLt N_0
  have hk := k.isLt
  by_cases hlt : t.val * 2048 + k.val < 30522
  · rw [dif_pos hlt]
    have hm : win0_0.moved (grid0.coords t) (ix2 r k) = true := (win0_0.moved_iff _ _).mpr fun a => by
      match a with
      | ⟨0, _⟩ => show r.val < win0_0.xsize (grid0.coords t) (0 : Fin 2); rw [s0]; exact r.isLt
      | ⟨1, _⟩ =>
        show k.val < win0_0.xsize (grid0.coords t) (1 : Fin 2)
        by_cases h14 : t.val = 14
        · rw [s14 h14]; omega
        · rw [sne h14]; exact hk
    unfold Window.fill; rw [dif_pos hm]
    show A ((win0_0.blk t).view.emb _) = A _
    refine congrArg A (funext fun a => Fin.ext ?_)
    match a with
    | ⟨0, _⟩ => show win0_0.index t (0 : Fin 2) * 2048 + 1 * r.val = r.val; rw [e0]; omega
    | ⟨1, _⟩ => show win0_0.index t (1 : Fin 2) * 2048 + 1 * k.val = t.val * 2048 + k.val; rw [e1]; omega
  · rw [dif_neg hlt]
    refine win0_0.fill_of_not_moved _ _ _ fun hm => hlt ?_
    have h1 : k.val < win0_0.xsize (grid0.coords t) (1 : Fin 2) := (win0_0.moved_iff _ _).mp hm (1 : Fin 2)
    by_cases h14 : t.val = 14
    · rw [s14 h14] at h1; omega
    · omega

/-- The second window's buffer likewise, at row `k` of the block and column `h`. -/
theorem fill1_apply (A : S30522x768.Idx → EReal) (t : Fin cfg0.N) (d : S2048x768.Idx → EReal) (k : Fin 2048) (h : Fin 768) :
    win0_1.fill (grid0.coords t) d ((win0_1.blk t).view.read (Elt Ideal) A) (ix2 k h)
      = if hl : t.val * 2048 + k.val < 30522 then A (ix2 ⟨t.val * 2048 + k.val, hl⟩ h) else d (ix2 k h) := by
  obtain ⟨e0, e1, s1, s14, sne⟩ := win1_facts t
  have hN : t.val < 15 := lt_of_lt_of_eq t.isLt N_0
  have hk := k.isLt
  by_cases hlt : t.val * 2048 + k.val < 30522
  · rw [dif_pos hlt]
    have hm : win0_1.moved (grid0.coords t) (ix2 k h) = true := (win0_1.moved_iff _ _).mpr fun a => by
      match a with
      | ⟨0, _⟩ =>
        show k.val < win0_1.xsize (grid0.coords t) (0 : Fin 2)
        by_cases h14 : t.val = 14
        · rw [s14 h14]; omega
        · rw [sne h14]; exact hk
      | ⟨1, _⟩ => show h.val < win0_1.xsize (grid0.coords t) (1 : Fin 2); rw [s1]; exact h.isLt
    unfold Window.fill; rw [dif_pos hm]
    show A ((win0_1.blk t).view.emb _) = A _
    refine congrArg A (funext fun a => Fin.ext ?_)
    match a with
    | ⟨0, _⟩ => show win0_1.index t (0 : Fin 2) * 2048 + 1 * k.val = t.val * 2048 + k.val; rw [e0]; omega
    | ⟨1, _⟩ => show win0_1.index t (1 : Fin 2) * 768 + 1 * h.val = h.val; rw [e1]; omega
  · rw [dif_neg hlt]
    refine win0_1.fill_of_not_moved _ _ _ fun hm => hlt ?_
    have h1 : k.val < win0_1.xsize (grid0.coords t) (0 : Fin 2) := (win0_1.moved_iff _ _).mp hm (0 : Fin 2)
    by_cases h14 : t.val = 14
    · rw [s14 h14] at h1; omega
    · omega

variable (m : (ℓ : Loc nD τ sig) → Buf (Elt Ideal) ℓ)

/-- The matrix of weights as the region finds it: positions × rows. -/
abbrev X0 (c : Dev nD) : S2048x30522.Idx → EReal := V m c (Pipeline.arrRef spec0 0)
/-- The table as the region finds it: rows × columns. -/
abbrev W0 (c : Dev nD) : S30522x768.Idx → EReal := V m c (Pipeline.arrRef spec0 1)

/-- The first window's named block: the weights' row 2048·t + k, zero past the array. -/
theorem xb_apply (c : Dev nD) (t : Fin cfg0.N) (r k : Fin 2048) :
    xb m c t (ix2 r k) = if h : t.val * 2048 + k.val < 30522 then X0 m c (ix2 r ⟨t.val * 2048 + k.val, h⟩) else 0 := by
  unfold xb iblk
  refine (fill0_apply (X0 m c) t _ r k).trans ?_
  by_cases hlt : t.val * 2048 + k.val < 30522
  · rw [dif_pos hlt, dif_pos hlt]
  · rw [dif_neg hlt, dif_neg hlt]; exact Ideal.ofBits_zero_f32

/-- The second window's named block: the table's row 2048·t + k, zero past the array. -/
theorem wb_apply (c : Dev nD) (t : Fin cfg0.N) (k : Fin 2048) (h : Fin 768) :
    wb m c t (ix2 k h) = if hl : t.val * 2048 + k.val < 30522 then W0 m c (ix2 ⟨t.val * 2048 + k.val, hl⟩ h) else 0 := by
  unfold wb iblk
  refine (fill1_apply (W0 m c) t _ k h).trans ?_
  by_cases hlt : t.val * 2048 + k.val < 30522
  · rw [dif_pos hlt, dif_pos hlt]
  · rw [dif_neg hlt, dif_neg hlt]; exact Ideal.ofBits_zero_f32

end Cert.KernelIdeal.Val

end
-- ==== Proof.LibBlockSum.lean ====
/-
  A finite sum taken in consecutive blocks.

  In any additive commutative monoid the sum of `f` over the first `J * K` naturals is the sum, over the `J`
  consecutive blocks of `K` naturals, of each block's own sum: `Σ_{s<J} Σ_{k<K} f (s·K + k) = Σ_{i<J·K} f i`.
  Only associativity, commutativity and the zero of `+` are used, so the statement holds on the extended reals with
  no finiteness assumption. A function on `Fin n` is carried to the naturals by extending it with zeros
  (`zeroExt`), which turns a `Fin`-indexed sum into a `Finset.range` sum and back.
-/
import Mathlib.Algebra.BigOperators.Fin
import Mathlib.Algebra.BigOperators.Group.Finset.Basic

namespace Cert.Lib.BlockSum

open Finset

variable {β : Type*} [AddCommMonoid β]

/-- The sum over the first `J * K` naturals, taken block by block: block `s` is `s·K, …, s·K + K - 1`. -/
theorem sum_range_blocks (J K : ℕ) (f : ℕ → β) :
    ∑ s ∈ range J, ∑ k ∈ range K, f (s * K + k) = ∑ i ∈ range (J * K), f i := by
  induction J with
  | zero => simp
  | succ J ih => rw [sum_range_succ, ih, Nat.succ_mul, sum_range_add]

/-- A function on `Fin n` extended to every natural by zero past `n`. -/
def zeroExt {n : ℕ} (f : Fin n → β) : ℕ → β := fun i => if h : i < n then f ⟨i, h⟩ else 0

/-- Below `n` the extension is the function. -/
theorem zeroExt_of_lt {n : ℕ} (f : Fin n → β) (i : ℕ) (h : i < n) : zeroExt f i = f ⟨i, h⟩ := dif_pos h

theorem zeroExt_val {n : ℕ} (f : Fin n → β) (i : Fin n) : zeroExt f i.val = f i := dif_pos i.isLt

/-- A `Fin n`-indexed sum is the sum of the extension over the first `n` naturals. -/
theorem sum_fin_eq_sum_range {n : ℕ} (f : Fin n → β) : ∑ i : Fin n, f i = ∑ i ∈ range n, zeroExt f i := by
  rw [Finset.sum_range]
  exact Finset.sum_congr rfl fun i _ => (zeroExt_val f i).symm

/-- The whole `Fin (J·K)`-indexed sum, block by block: block `s`'s sum runs over `k : Fin K` at position `s·K + k`. -/
theorem sum_fin_blocks {N : ℕ} (J K : ℕ) (hN : N = J * K) (f : Fin N → β) :
    ∑ s ∈ range J, ∑ k : Fin K, zeroExt f (s * K + k.val) = ∑ i : Fin N, f i := by
  subst hN
  rw [sum_fin_eq_sum_range f, ← sum_range_blocks]
  exact Finset.sum_congr rfl fun s _ => (Finset.sum_range fun k => zeroExt f (s * K + k)).symm

end Cert.Lib.BlockSum
-- ==== Proof.Spec.lean ====
/-
  The one function both programs compute, and the law that lets each of them be read as it.

  For a table `w` of 30522 rows of 768 entries and weights `x` over 16 × 128 positions and 30522 rows,
  the result at position (b, s) and column h is the weighted sum of the table's column h,

      G w x (b, s, h) = Σ_{k < 30522} x (b, s, k) · w (k, h),

  taken on the extended reals. Each program reaches this sum in consecutive blocks of K rows (K = 2048 in one,
  K = 512 in the other) over a range J · K ≥ 30522 that overshoots the table, the overshoot contributing zeros.
  `sum_blocks_padded` says such a blockwise sum of a zero-extended function is the plain sum: only associativity,
  commutativity and the zero of addition are used, so nothing has to be finite.
-/
import Mathlib.Algebra.BigOperators.Fin
import Mathlib.Algebra.BigOperators.Group.Finset.Basic
import Idealize.ShloMosaic.PureOps.Ideal
import Idealize.ShloMosaic.Lib.ValueIdx
import proofs.«113590_g2000002446326655_pallasbulk_315_20_alg».proof.Proof.LibBlockSum

noncomputable section

namespace Cert.Spec

open Idealize.ShloMosaic Idealize.ShloMosaic.ValueIdx Finset Cert.Lib.BlockSum

/-- The weighted sum of table rows: position (b, s), column h. -/
def G (w : (⟨2, ![30522, 768]⟩ : Shape).Idx → EReal) (x : (⟨3, ![16, 128, 30522]⟩ : Shape).Idx → EReal) :
    (⟨3, ![16, 128, 768]⟩ : Shape).Idx → EReal :=
  fun i => ∑ k : Fin 30522, x (ix3 (i 0) (i 1) k) * w (ix2 k (i 2))

variable {β : Type*} [AddCommMonoid β]

/-- Past `n` the zero extension adds nothing: summing it over any longer range is summing over `n`. -/
theorem sum_range_zeroExt {n N : ℕ} (h : n ≤ N) (f : Fin n → β) :
    ∑ i ∈ range N, zeroExt f i = ∑ i : Fin n, f i := by
  obtain ⟨d, rfl⟩ := Nat.exists_eq_add_of_le h
  rw [sum_range_add, ← Cert.Lib.BlockSum.sum_fin_eq_sum_range f]
  have : ∑ i ∈ range d, zeroExt f (n + i) = 0 :=
    Finset.sum_eq_zero fun i _ => dif_neg (by omega)
  rw [this, add_zero]

/-- A sum taken in `J` consecutive blocks of `K` positions that together reach at least `n`, of a function on
    `Fin n` extended by zero, is the sum of the function. -/
theorem sum_blocks_padded {n : ℕ} (J K : ℕ) (h : n ≤ J * K) (f : Fin n → β) :
    ∑ s ∈ range J, ∑ k : Fin K, zeroExt f (s * K + k.val) = ∑ i : Fin n, f i := by
  rw [← sum_range_zeroExt h f, ← sum_range_blocks]
  exact Finset.sum_congr rfl fun s _ => (Finset.sum_range fun k => zeroExt f (s * K + k)).symm

end Cert.Spec

end
-- ==== Proof.KAcc.lean ====
/-
  The running sum in the result's buffer, read at an index, and its last value as one sum over the table's rows.

  Fix a position (b, s), i.e. row r = b·128 + s of the weights, and a column h, and let
  `term j = X0(r, j) · W0(j, h)` for the 30522 table rows j. Block t's product at (b, s, h) is the sum over the block's
  2048 rows k of `term` extended by zero, at 2048·t + k: inside the table both named blocks read the arrays, and beyond
  it both are zero and the product of two zeros is zero. At the last point the body zeroes rows from 1850 on, which
  are exactly the rows with 2048·14 + k ≥ 30522, so the same holds there. Adding block by block, the buffer after point
  n holds the sum over blocks 0 … n; after the fifteenth block that is the sum over all rows — regrouping a finite sum
  uses only associativity and commutativity, so nothing has to be finite.
-/
import proofs.«113590_g2000002446326655_pallasbulk_315_20_alg».proof.Proof.KPay
import proofs.«113590_g2000002446326655_pallasbulk_315_20_alg».proof.Proof.KBlocks
import proofs.«113590_g2000002446326655_pallasbulk_315_20_alg».proof.Proof.Spec

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Cert.Lib.BlockSum Finset

variable (m : (ℓ : Loc nD τ sig) → Buf (Elt Ideal) ℓ)

/-- The products that make up the result at row `r` of the weights and column `h` of the table, one per table row. -/
def term (c : Dev nD) (r : Fin 2048) (h : Fin 768) : Fin 30522 → EReal := fun j => X0 m c (ix2 r j) * W0 m c (ix2 j h)

/-- One product of the named blocks at point `t` is the table row's product, or zero past the table. -/
theorem prod_term (c : Dev nD) (t : Fin cfg0.N) (r k : Fin 2048) (h : Fin 768) :
    xb m c t (ix2 r k) * wb m c t (ix2 k h) = zeroExt (term m c r h) (t.val * 2048 + k.val) := by
  rw [xb_apply, wb_apply]
  unfold zeroExt
  by_cases hlt : t.val * 2048 + k.val < 30522
  · rw [dif_pos hlt, dif_pos hlt, dif_pos hlt]; rfl
  · rw [dif_neg hlt, dif_neg hlt, dif_neg hlt, zero_mul]

/-- At the last point the body's zeroing of rows from 1850 on changes nothing: those are the rows past the table. -/
theorem prod_term_last (c : Dev nD) (t : Fin cfg0.N) (ht : t.val = 14) (r k : Fin 2048) (h : Fin 768) :
    (if k.val < 1850 then xb m c t (ix2 r k) else 0) * (if k.val < 1850 then wb m c t (ix2 k h) else 0)
      = zeroExt (term m c r h) (t.val * 2048 + k.val) := by
  by_cases hk : k.val < 1850
  · rw [if_pos hk, if_pos hk]; exact prod_term m c t r k h
  · rw [if_neg hk, if_neg hk, zero_mul]
    unfold zeroExt
    rw [dif_neg (by omega)]

/-- After point `n` the result's buffer holds, at (b, s, h), the sum over the blocks 0 … n. -/
theorem acc_apply (c : Dev nD) : ∀ (n : ℕ) (hn : n < cfg0.N) (b : Fin 16) (s : Fin 128) (h : Fin 768),
    acc m c n hn (ix3 b s h) = ∑ t ∈ range (n + 1), ∑ k : Fin 2048, zeroExt (term m c (row b s) h) (t * 2048 + k.val)
  | 0, hn, b, s, h => by
    rw [acc_zero, sum_range_one]
    refine (pay1_apply _ _ b s h).trans ?_
    exact Finset.sum_congr rfl fun k _ => prod_term m c ⟨0, hn⟩ (row b s) k h
  | n + 1, hn, b, s, h => by
    have ih := acc_apply c n (Nat.lt_of_succ_lt hn) b s h
    rw [sum_range_succ, ← ih]
    by_cases h14 : n + 1 = 14
    · rw [acc_last m c n hn h14]
      refine (pay3_apply _ _ _ b s h).trans ?_
      exact congrArg₂ (· + ·) rfl (Finset.sum_congr rfl fun k _ => prod_term_last m c ⟨n + 1, hn⟩ h14 (row b s) k h)
    · rw [acc_mid m c n hn h14]
      refine (pay2_apply _ _ _ b s h).trans ?_
      exact congrArg₂ (· + ·) rfl (Finset.sum_congr rfl fun k _ => prod_term m c ⟨n + 1, hn⟩ (row b s) k h)

/-- After the last point: the sum over all 30522 table rows. -/
theorem acc_final (c : Dev nD) (hn : 14 < cfg0.N) (b : Fin 16) (s : Fin 128) (h : Fin 768) :
    acc m c 14 hn (ix3 b s h) = ∑ j : Fin 30522, term m c (row b s) h j := by
  rw [acc_apply]
  exact Cert.Spec.sum_blocks_padded 15 2048 (by norm_num) _

end Cert.KernelIdeal.Val

end
-- ==== Proof.KFinal.lean ====
/-
  The result array after the run, as one function of the two arguments.

  The result's window is the whole array and is written back once, after the last point, so the array ends holding
  what the result's buffer held then: at (b, s, h) the sum over the table's rows j of X0(b·128 + s, j) · W0(j, h), where
  X0 is the host's 2048 × 30522 view of the 16 × 128 × 30522 weights (position (b, s) is its row b·128 + s) and W0 the
  table itself. That is the specification's sum Σ_j x(b, s, j) · w(j, h).
-/
import proofs.«113590_g2000002446326655_pallasbulk_315_20_alg».proof.Proof.KAcc
import Idealize.ShloMosaic.Lib.Pipeline.Value
import Idealize.ShloMosaic.Lib.StableHlo.Run

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Window)
open Finset

variable (m : (ℓ : Loc nD τ sig) → Buf (Elt Ideal) ℓ)

/-- The result as a function of the arrays the region finds: the sum over the table's rows. -/
def GK (c : Dev nD) : S16x128x768.Idx → EReal := fun i => ∑ j : Fin 30522, term m c (row (i 0) (i 1)) (i 2) j

/-- After the last point the result's buffer holds it, at every index. -/
theorem acc_GK (c : Dev nD) (t : Fin cfg0.N) (h14 : t.val = 14) (i : S16x128x768.Idx) :
    acc m c t.val t.isLt i = GK m c i := by
  obtain ⟨n, hn⟩ := t
  obtain rfl : n = 14 := h14
  rw [eq_ix3 i]
  exact acc_final m c hn (i 0) (i 1) (i 2)

/-- The result's window is block (0, 0, 0) at every point. -/
theorem win2_facts : ∀ t : Fin cfg0.N,
    win0_2.index t (0 : Fin 3) = 0 ∧ win0_2.index t (1 : Fin 3) = 0 ∧ win0_2.index t (2 : Fin 3) = 0 :=
  (by decide +kernel : ∀ t : Fin grid0.N, _)

/-- A block of the result's window read off any array: the array at the block's index. -/
theorem read2 (G : S16x128x768.Idx → EReal) (t : Fin cfg0.N) (j : ((cfg0.win 2).xblock (grid0.coords t)).Idx) :
    ((cfg0.win 2).blk t).view.read (Elt Ideal) G j = G (((cfg0.win 2).blk t).view.emb j) := rfl

/-- The part of a buffer of the result's window that a write-back moves: the buffer at the same index. -/
theorem cut2 (X : S16x128x768.Idx → EReal) (t : Fin cfg0.N) (j : ((cfg0.win 2).xblock (grid0.coords t)).Idx) :
    (cfg0.win 2).cut (grid0.coords t) X j = X ((cfg0.win 2).xinj (grid0.coords t) j) := rfl

/-- What the one write-back writes is the whole of `GK`. -/
theorem flushed_eq (c : Dev nD) (t : Fin cfg0.N) (hf : (cfg0.win 2).flush t = true) :
    (dats m 0 c).flushed 2 t = ((cfg0.win 2).blk t).view.read (Elt Ideal) (GK m c) := by
  have hN : t.val < 15 := lt_of_lt_of_eq t.isLt N_0
  have h14 : t.val = 14 := by have := (flush0_2 t).mp hf; omega
  obtain ⟨e0, e1, e2⟩ := win2_facts t
  show (cfg0.win 2).cut (grid0.coords t) ((dats m 0 c).after 2 t) = _
  rw [after_2]
  funext j
  have hi : (cfg0.win 2).xinj (grid0.coords t) j = ((cfg0.win 2).blk t).view.emb j := by
    funext a; apply Fin.ext
    match a with
    | ⟨0, _⟩ => show (j 0).val = win0_2.index t (0 : Fin 3) * 16 + 1 * (j 0).val; rw [e0]; omega
    | ⟨1, _⟩ => show (j 1).val = win0_2.index t (1 : Fin 3) * 128 + 1 * (j 1).val; rw [e1]; omega
    | ⟨2, _⟩ => show (j 2).val = win0_2.index t (2 : Fin 3) * 768 + 1 * (j 2).val; rw [e2]; omega
  exact (cut2 (acc m c t.val t.isLt) t j).trans
    (((congrArg (acc m c t.val t.isLt) hi).trans (acc_GK m c t h14 _)).trans (read2 (GK m c) t j).symm)

/-- Every index of the result is in the last point's block. -/
theorem cover (c : Dev nD) (i : S16x128x768.Idx) :
    ∃ t : Fin cfg0.N, (cfg0.win 2).flush t = true ∧ i ∈ ((cfg0.win 2).blk t).view.set := by
  refine ⟨t0_14, (flush0_2 t0_14).mpr rfl, ?_⟩
  obtain ⟨e0, e1, e2⟩ := win2_facts t0_14
  show i ∈ ((View.whole main_v1).slice (win0_2.rect t0_14)).set
  rw [View.set_slice_whole, Rect.mem_set_unit]
  intro a
  match a with
  | ⟨0, _⟩ =>
    show win0_2.index t0_14 (0 : Fin 3) * 16 ≤ (i 0).val ∧ (i 0).val < win0_2.index t0_14 (0 : Fin 3) * 16 + 16
    rw [e0]; have hb : (i 0).val < 16 := (i 0).isLt; omega
  | ⟨1, _⟩ =>
    show win0_2.index t0_14 (1 : Fin 3) * 128 ≤ (i 1).val ∧ (i 1).val < win0_2.index t0_14 (1 : Fin 3) * 128 + 128
    rw [e1]; have hb : (i 1).val < 128 := (i 1).isLt; omega
  | ⟨2, _⟩ =>
    show win0_2.index t0_14 (2 : Fin 3) * 768 ≤ (i 2).val ∧ (i 2).val < win0_2.index t0_14 (2 : Fin 3) * 768 + 768
    rw [e2]; have hb : (i 2).val < 768 := (i 2).isLt; omega

/-- The result array after the run. -/
theorem final (c : Dev nD) : (dats m 0 c).arrAt 2 cfg0.N = GK m c :=
  (dats m 0 c).arrAt_eq_of_cover 2 (GK m c) (fun t hf => flushed_eq m c t hf) (cover c)

/-- The host's view of the weights as a matrix, read at position (b, s) and row j. -/
theorem X0_apply (c : Dev nD) (b : Fin 16) (s : Fin 128) (j : Fin 30522) :
    X0 m c (ix2 (row b s) j) = m ((c : Thread nD τ).loc main_arg1) (ix3 b s j) := by
  have e : (V m c main_v0 : S2048x30522.Idx → EReal)
      = shapeCast S2048x30522 (m ((c : Thread nD τ).loc main_arg1)) shapeCasts_S16x128x30522_S2048x30522 := by
    dsimp only [V, hostOps0]; after_results; rfl
  show (V m c main_v0 : S2048x30522.Idx → EReal) (ix2 (row b s) j) = _
  rw [e]
  refine shapeCast_apply _ shapeCasts_S16x128x30522_S2048x30522 (ix2 (row b s) j) (ix3 b s j) ?_
  rw [Shape.rowMajor_val_two, Shape.rowMajor_val_three]; rfl

/-- The result is the specification's function of the two arguments. -/
theorem GK_eq (c : Dev nD) :
    GK m c = Cert.Spec.G (m ((c : Thread nD τ).loc main_arg0)) (m ((c : Thread nD τ).loc main_arg1)) := by
  funext i
  unfold GK Cert.Spec.G term
  refine Finset.sum_congr rfl fun j _ => ?_
  exact congrArg₂ (· * ·) (X0_apply m c (i 0) (i 1) j) (congrFun (V_main_arg0 m c) (ix2 j (i 2)))

end Cert.KernelIdeal.Val

end
-- ==== Proof.KRun.lean ====
/-
  The idealized kernel's run, with its result named.

  Every weakly fair execution ends, nothing faulting, with the result array holding the specification's weighted
  sums of the two arguments and the arguments what they held: the frame run's post, whose result array is what
  the proof data computes, read through the closed form of that array.
-/
import proofs.«113590_g2000002446326655_pallasbulk_315_20_alg».proof.Proof.KFinal
import proofs.«113590_g2000002446326655_pallasbulk_315_20_alg».proof.Proof.KBody

noncomputable section

namespace Cert.KernelIdeal.Val

open Cert.KernelIdeal Cert.KernelIdeal.Gen Cert.KernelIdeal.Hand
open Idealize.ShloMosaic Idealize.ShloMosaic.TcCoe
open Idealize.SL.Sem

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v1)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(((h c).1 2).trans (final m c)).trans (GK_eq m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c)⟩)
    (Hand.run_main m ρ)

end Cert.KernelIdeal.Val

end
-- ==== Proof.RefPieces.lean ====
/-
  What one grid point leaves behind, as values.

  The kernel keeps a running sum in a scratch block. At the first column block of a row block it stores the zero block
  and then the zero block plus the product of the two loaded blocks; at every later column block it stores what the
  point before left plus the product; at the last column block it also copies the scratch into the output block.
  Each of these is one store covering the whole block, so what the block holds afterwards is that store's payload.
-/
import proofs.«113590_g2000002446326655_pallasbulk_315_20_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.RefValue

open Cert.ReferenceIdeal Cert.ReferenceIdeal.Gen

variable {F : FTy → Type} [FloatOps F]

theorem hz : (![0, 0] : Fin 2 → Nat) = fun _ => 0 := funext fun a => by fin_cases a <;> rfl

/-- First column block: the scratch ends at the zero block plus the product of the two loaded blocks. -/
theorem scratch_first (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : cond0_0 i) (hc1 : ¬cond0_1 i)
    (x0 : Vec F S256x512 .f32) (x1 : Vec F S512x768 .f32) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x768) hz, View.readCov_unit_zero (S := S256x768) _ hz]
  simp only [View.readAt_eq_ld, h3.read_unread, h4.read_unread, View.ld_unit_zero (S := S256x512) hz,
    View.ld_unit_zero (S := S512x768) hz]

/-- A middle column block: the scratch ends at what the point before left plus the product. -/
theorem scratch_middle (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : ¬cond0_0 i) (hc1 : ¬cond0_1 i)
    (x0 : Vec F S256x512 .f32) (x1 : Vec F S512x768 .f32) (xs : Vec F S256x768 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S256x512) hz,
    View.ld_unit_zero (S := S512x768) hz, View.ld_unit_zero (S := S256x768) hz]

/-- The last column block: the scratch ends at what the point before left plus the product, -/
theorem scratch_last (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : ¬cond0_0 i) (hc1 : cond0_1 i)
    (x0 : Vec F S256x512 .f32) (x1 : Vec F S512x768 .f32) (xs : Vec F S256x768 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S256x512) hz,
    View.ld_unit_zero (S := S512x768) hz, View.ld_unit_zero (S := S256x768) hz]

/-- and the output block is a copy of it. -/
theorem out_last (c : Dev nD) (i : grid0.Coords) (a3 : Memref sig .tc .vmem S256x512 .f32) (h3 : a3.IsWhole)
    (a4 : Memref sig .tc .vmem S512x768 .f32) (h4 : a4.IsWhole) (a5 : Memref sig .tc .vmem S256x768 .f32) (h5 : a5.IsWhole)
    (a6 : Memref sig .tc .vmem S256x768 .f32) (h6 : a6.IsWhole) (hc0 : ¬cond0_0 i) (hc1 : cond0_1 i)
    (x0 : Vec F S256x512 .f32) (x1 : Vec F S512x768 .f32) (xs : Vec F S256x768 .f32) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words

  rw [View.canon_unit_zero hz, View.readCov_unit_zero (S := S256x768) _ hz]
  simp only [View.readAt_eq_ld, h3.read_unread, h4.read_unread, h6.read_unread, View.ld_unit_zero (S := S256x512) hz,
    View.ld_unit_zero (S := S512x768) hz, View.ld_unit_zero (S := S256x768) hz]

end Cert.RefValue

end
-- ==== Proof.RefPayload.lean ====
/-
  The arithmetic of one grid point, entry by entry, on the extended reals.

  The product of a 256 x 512 block by a 512 x 768 block into the zero accumulator is, at row p and column q, the sum
  over k of l(p, k) * r(k, q). The zero block reads zero everywhere. So the value stored at a point is, entry by entry,
  the previous value plus that sum.
-/
import proofs.«113590_g2000002446326655_pallasbulk_315_20_alg».proof.Proof.Gen.ReferenceIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.RefValue

open Cert.ReferenceIdeal Cert.ReferenceIdeal.Gen

/-- The sum over the contracted coordinate of the products of the two blocks' entries. -/
def blockProd (l : S256x512.Idx → EReal) (r : S512x768.Idx → EReal) (p : Fin 256) (q : Fin 768) : EReal :=
  ∑ k : Fin 512, l (ix2 p k) * r (ix2 k q)

/-- The block product into the zero accumulator, read at an entry. -/
theorem matmul_at (l : FVec Ideal S256x512 .f32) (r : FVec Ideal S512x768 .f32) (p : Fin 256) (q : Fin 768) :
    FloatOps.matmul (F := Ideal) dot_S256x512_S512x768_S256x768_1_0_0_1_n_n none l r (constant (F := Ideal) S256x768 .f32 0x00000000#32) (ix2 p q)
      = blockProd l r p q := by
  unfold blockProd
  rw [Ideal.matmul_constant_zero_apply, ← Equiv.sum_comp (contrEquiv1 dot_S256x512_S512x768_S256x768_1_0_0_1_n_n 512 rfl rfl).symm]
  refine Finset.sum_congr rfl fun k _ => ?_
  have ck := contrEquiv1_symm_val dot_S256x512_S512x768_S256x768_1_0_0_1_n_n 512 rfl rfl k
  have l2 : (dot_S256x512_S512x768_S256x768_1_0_0_1_n_n).lhsIdx (ix2 p q) ((contrEquiv1 dot_S256x512_S512x768_S256x768_1_0_0_1_n_n 512 rfl rfl).symm k) = ix2 p k := by
    funext ax; apply Fin.ext
    match ax with
    | ⟨0, _⟩ => simp [DotDims.lhsIdx, dot_S256x512_S512x768_S256x768_1_0_0_1_n_n]; rfl
    | ⟨1, _⟩ => simp [DotDims.lhsIdx, dot_S256x512_S512x768_S256x768_1_0_0_1_n_n]; exact ck
  have r2 : (dot_S256x512_S512x768_S256x768_1_0_0_1_n_n).rhsIdx (ix2 p q) ((contrEquiv1 dot_S256x512_S512x768_S256x768_1_0_0_1_n_n 512 rfl rfl).symm k) = ix2 k q := by
    funext ax; apply Fin.ext
    match ax with
    | ⟨0, _⟩ => simp [DotDims.rhsIdx, dot_S256x512_S512x768_S256x768_1_0_0_1_n_n]; exact ck
    | ⟨1, _⟩ => simp [DotDims.rhsIdx, dot_S256x512_S512x768_S256x768_1_0_0_1_n_n]; rfl
  rw [l2, r2]

/-- The zero block reads zero. -/
theorem zero_at (p : Fin 256) (q : Fin 768) : (k0_pay1 (F := Ideal)) (ix2 p q) = 0 := by
  unfold k0_pay1
  rw [shapeCast_self]
  exact Ideal.ofBits_zero_f32

/-- What a point stores, at an entry: the value before plus the sum of products. -/
theorem step_at (acc : Vec Ideal S256x768 .f32) (l : Vec Ideal S256x512 .f32) (r : Vec Ideal S512x768 .f32)
    (p : Fin 256) (q : Fin 768) :
    (k0_pay2 (F := Ideal) acc l r) (ix2 p q) = acc (ix2 p q) + blockProd l r p q := by
  unfold k0_pay2
  rw [shapeCast_self, shapeCast_self, shapeCast_self]
  exact congrArg (acc (ix2 p q) + ·) (matmul_at l r p q)

end Cert.RefValue

end
-- ==== Proof.RefOperands.lean ====
/-
  The padded operands, entry by entry.

  The weights over 16 x 128 positions and 30522 rows are laid out as 2048 rows of 30522 (row r is position
  (r / 128, r % 128)) and padded with zeros to 30720 columns; the table of 30522 rows is padded with zero rows to 30720
  rows. The padding value is the integer zero converted, which is the real zero. An entry of either padded operand is
  the corresponding entry of the argument where the padded coordinate is below 30522, and zero past it. Both are
  written here as functions of natural-number coordinates that are zero outside the argument's extent.
-/
import proofs.«113590_g2000002446326655_pallasbulk_315_20_alg».proof.Proof.Gen.ReferenceIdeal
import Idealize.ShloMosaic.PureOps.Ideal.Laws
import Idealize.ShloMosaic.Lib.ValueIdx
import Idealize.ShloMosaic.Lib.Pipeline.Value
import Idealize.ShloMosaic.Lib.KernelVsHost

noncomputable section

open Idealize.ShloMosaic Idealize.ShloMosaic.ValueIdx

namespace Cert.RefValue

open Cert.ReferenceIdeal Cert.ReferenceIdeal.Gen

/-- The padding value: the integer zero converted. -/
def padv : FVec Ideal S_ .f32 := sitofp (F := Ideal) .f32 (constantI S_ 32 0#32)

/-- It is the real zero. -/
theorem padv_apply (i : S_.Idx) : padv i = 0 := by
  show (((0#32 : BitVec 32).toInt : ℝ) : EReal) = 0
  simp

/-- The padded weights, as the host computes them from the argument. -/
def padX (a1 : S16x128x30522.Idx → EReal) : S2048x30720.Idx → EReal :=
  pad S2048x30720 ![0, 0] ![0, 198] ![0, 0] (shapeCast S2048x30522 a1 shapeCasts_S16x128x30522_S2048x30522) padv
    pads_S2048x30522_S2048x30720_000_01980 h_S_

/-- The padded table. -/
def padW (a0 : S30522x768.Idx → EReal) : S30720x768.Idx → EReal :=
  pad S30720x768 ![0, 0] ![198, 0] ![0, 0] a0 padv pads_S30522x768_S30720x768_01980_000 h_S_

/-- The weights at row r of 2048 and column k, zero outside. -/
def MX (a1 : S16x128x30522.Idx → EReal) (r k : ℕ) : EReal :=
  if h : r < 2048 ∧ k < 30522 then
    a1 (ix3 (⟨r / 128, by omega⟩ : Fin 16) (⟨r % 128, by omega⟩ : Fin 128) (⟨k, h.2⟩ : Fin 30522))
  else 0

/-- The table at row k and column q, zero outside. -/
def MW (a0 : S30522x768.Idx → EReal) (k q : ℕ) : EReal :=
  if h : k < 30522 ∧ q < 768 then a0 (ix2 (⟨k, h.1⟩ : Fin 30522) (⟨q, h.2⟩ : Fin 768)) else 0

/-- The flattening of the positions, at an entry. -/
theorem flat_at (a1 : S16x128x30522.Idx → EReal) (r : Fin 2048) (k : Fin 30522) :
    shapeCast S2048x30522 a1 shapeCasts_S16x128x30522_S2048x30522 (ix2 r k)
      = a1 (ix3 (⟨r.val / 128, by omega⟩ : Fin 16) (⟨r.val % 128, by omega⟩ : Fin 128) k) := by
  refine shapeCast_apply a1 _ (ix2 r k) _ ?_
  rw [Shape.rowMajor_val_three, Shape.rowMajor_val_two]
  show (r.val / 128 * 128 + r.val % 128) * 30522 + k.val = r.val * 30522 + k.val
  rw [Nat.div_add_mod' r.val 128]

/-- An entry of the padded weights. -/
theorem padX_at (a1 : S16x128x30522.Idx → EReal) (r : Fin 2048) (k : Fin 30720) :
    padX a1 (ix2 r k) = MX a1 r.val k.val := by
  unfold padX MX
  by_cases hk : k.val < 30522
  · rw [dif_pos ⟨r.isLt, hk⟩]
    refine (pad_apply_of_inside _ _ _ _ _ _ _ (ix2 r k) (ix2 r (⟨k.val, hk⟩ : Fin 30522)) ?_).trans ?_
    · intro a
      match a with
      | ⟨0, _⟩ => show r.val = 0 + r.val * (0 + 1); omega
      | ⟨1, _⟩ => show k.val = 0 + k.val * (0 + 1); omega
    · exact flat_at a1 r ⟨k.val, hk⟩
  · rw [dif_neg (fun h => hk h.2)]
    refine (pad_apply_of_not_inside _ _ _ _ _ _ _ (ix2 r k) (1 : Fin 2) ?_).trans (padv_apply _)
    show ¬(0 ≤ k.val ∧ (k.val - 0) % (0 + 1) = 0 ∧ (k.val - 0) / (0 + 1) < 30522)
    omega

/-- An entry of the padded table. -/
theorem padW_at (a0 : S30522x768.Idx → EReal) (k : Fin 30720) (q : Fin 768) :
    padW a0 (ix2 k q) = MW a0 k.val q.val := by
  unfold padW MW
  by_cases hk : k.val < 30522
  · rw [dif_pos ⟨hk, q.isLt⟩]
    refine pad_apply_of_inside _ _ _ _ _ _ _ (ix2 k q) (ix2 (⟨k.val, hk⟩ : Fin 30522) q) ?_
    intro a
    match a with
    | ⟨0, _⟩ => show k.val = 0 + k.val * (0 + 1); omega
    | ⟨1, _⟩ => show q.val = 0 + q.val * (0 + 1); omega
  · rw [dif_neg (fun h => hk h.1)]
    refine (pad_apply_of_not_inside _ _ _ _ _ _ _ (ix2 k q) (0 : Fin 2) ?_).trans (padv_apply _)
    show ¬(0 ≤ k.val ∧ (k.val - 0) % (0 + 1) = 0 ∧ (k.val - 0) / (0 + 1) < 30522)
    omega

end Cert.RefValue

end
-- ==== Proof.RefEntry.lean ====
/-
  The two operands as the kernel finds them.

  Before the kernel runs, the weights over 16 x 128 positions and 30522 rows are laid out as 2048 rows of 30522 and
  padded with zeros to 30720 columns, and the table of 30522 rows is padded with zero rows to 30720 rows. The padding
  value is the integer zero converted, which is the real zero. So an entry of either padded operand is the
  corresponding entry of the argument where the row or column is below 30522, and zero past it.
-/
import proofs.«113590_g2000002446326655_pallasbulk_315_20_alg».proof.Proof.Gen.ReferenceIdeal.Frame.Runs
import proofs.«113590_g2000002446326655_pallasbulk_315_20_alg».proof.Proof.RefOperands
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.RefValue

open Cert.ReferenceIdeal Cert.ReferenceIdeal.Gen

variable (m : (ℓ : Loc nD τ sig) → Buf (Elt Ideal) ℓ)

/-- The padded weights are what the kernel's first window is cut from, -/
theorem entry_X (c : Dev nD) :
    (V m c main_v1 : S2048x30720.Idx → EReal) = padX (m ((c : Thread nD τ).loc main_arg1)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- and the padded table what its second window is cut from. -/
theorem entry_W (c : Dev nD) :
    (V m c main_v2 : S30720x768.Idx → EReal) = padW (m ((c : Thread nD τ).loc main_arg0)) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

end Cert.RefValue

end
-- ==== Proof.RefBlocks.lean ====
/-
  The blocks the kernel is handed, entry by entry.

  The grid has 480 points: point t works on row block t / 60 (256 rows each) and column block t % 60 (512 columns each).
  The first window's block at t is rows (t / 60) * 256 + p and columns (t % 60) * 512 + k of the padded weights; the
  second window's block is rows (t % 60) * 512 + k of the padded table, all 768 columns; the output's block is rows
  (t / 60) * 256 + p, all 768 columns.
-/
import proofs.«113590_g2000002446326655_pallasbulk_315_20_alg».proof.Proof.Gen.ReferenceIdeal.Frame.Runs
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.RefValue

open Cert.ReferenceIdeal Cert.ReferenceIdeal.Gen

/-- Where each window's block sits at point t: decided once over the grid. -/
theorem idx_facts : ∀ t : Fin cfg0.N,
    win0_0.index t (0 : Fin 2) = t.val / 60 ∧ win0_0.index t (1 : Fin 2) = t.val % 60
    ∧ win0_1.index t (0 : Fin 2) = t.val % 60 ∧ win0_1.index t (1 : Fin 2) = 0
    ∧ win0_2.index t (0 : Fin 2) = t.val / 60 ∧ win0_2.index t (1 : Fin 2) = 0 :=
  (by decide +kernel : ∀ t : Fin grid0.N, _)

/-- The first window's block, read off any array of the padded weights' shape. -/
theorem blk0_at (A : S2048x30720.Idx → EReal) (t : Fin cfg0.N) (p : Fin 256) (k : Fin 512)
    (hr : t.val / 60 * 256 + p.val < 2048) (hk : t.val % 60 * 512 + k.val < 30720) :
    (((cfg0.win 0).blk t).view.read (Elt Ideal) A : S256x512.Idx → EReal) (ix2 p k)
      = A (ix2 (⟨t.val / 60 * 256 + p.val, hr⟩ : Fin 2048) (⟨t.val % 60 * 512 + k.val, hk⟩ : Fin 30720)) := by
  obtain ⟨e0, e1, -⟩ := idx_facts t
  rw [View.read_apply]
  show A _ = A _
  congr 1
  funext a
  apply Fin.ext
  match a with
  | ⟨0, _⟩ => show win0_0.index t (0 : Fin 2) * 256 + 1 * p.val = t.val / 60 * 256 + p.val; rw [e0]; omega
  | ⟨1, _⟩ => show win0_0.index t (1 : Fin 2) * 512 + 1 * k.val = t.val % 60 * 512 + k.val; rw [e1]; omega

/-- The second window's block, read off any array of the padded table's shape. -/
theorem blk1_at (A : S30720x768.Idx → EReal) (t : Fin cfg0.N) (k : Fin 512) (q : Fin 768)
    (hk : t.val % 60 * 512 + k.val < 30720) :
    (((cfg0.win 1).blk t).view.read (Elt Ideal) A : S512x768.Idx → EReal) (ix2 k q)
      = A (ix2 (⟨t.val % 60 * 512 + k.val, hk⟩ : Fin 30720) q) := by
  obtain ⟨-, -, e0, e1, -⟩ := idx_facts t
  rw [View.read_apply]
  show A _ = A _
  congr 1
  funext a
  apply Fin.ext
  match a with
  | ⟨0, _⟩ => show win0_1.index t (0 : Fin 2) * 512 + 1 * k.val = t.val % 60 * 512 + k.val; rw [e0]; omega
  | ⟨1, _⟩ => show win0_1.index t (1 : Fin 2) * 768 + 1 * q.val = q.val; rw [e1]; omega

/-- The output window's block, read off any array of the result's shape. -/
theorem blk2_at (A : S2048x768.Idx → EReal) (t : Fin cfg0.N) (p : Fin 256) (q : Fin 768)
    (hr : t.val / 60 * 256 + p.val < 2048) :
    (((cfg0.win 2).blk t).view.read (Elt Ideal) A : S256x768.Idx → EReal) (ix2 p q)
      = A (ix2 (⟨t.val / 60 * 256 + p.val, hr⟩ : Fin 2048) q) := by
  obtain ⟨-, -, -, -, e0, e1⟩ := idx_facts t
  rw [View.read_apply]
  show A _ = A _
  congr 1
  funext a
  apply Fin.ext
  match a with
  | ⟨0, _⟩ => show win0_2.index t (0 : Fin 2) * 256 + 1 * p.val = t.val / 60 * 256 + p.val; rw [e0]; omega
  | ⟨1, _⟩ => show win0_2.index t (1 : Fin 2) * 768 + 1 * q.val = q.val; rw [e1]; omega

end Cert.RefValue

end
-- ==== Proof.RefInvariant.lean ====
/-
  The running sum.

  Write term r q s for the contribution of column block s to row r and column q: the sum over k < 512 of the padded
  weights at (r, s * 512 + k) times the padded table at (s * 512 + k, q). At point t (row block t / 60, column block
  t % 60) the product of the two blocks the kernel is handed is, at (p, q), term ((t / 60) * 256 + p) q (t % 60). The
  scratch block is set to that term at the first column block of a row block and grows by it at every later one, so
  after point n it holds, at (p, q), the sum of the terms of column blocks 0 .. n % 60 of row (n / 60) * 256 + p: by
  induction on the point. At the last column block the output block is a copy of the scratch: all 60 terms.
-/
import proofs.«113590_g2000002446326655_pallasbulk_315_20_alg».proof.Proof.Gen.ReferenceIdeal.Frame
import proofs.«113590_g2000002446326655_pallasbulk_315_20_alg».proof.Proof.RefPieces
import proofs.«113590_g2000002446326655_pallasbulk_315_20_alg».proof.Proof.RefPayload
import proofs.«113590_g2000002446326655_pallasbulk_315_20_alg».proof.Proof.RefOperands
import proofs.«113590_g2000002446326655_pallasbulk_315_20_alg».proof.Proof.RefEntry
import proofs.«113590_g2000002446326655_pallasbulk_315_20_alg».proof.Proof.RefBlocks

noncomputable section

open Idealize.ShloMosaic Idealize.ShloMosaic.TcCoe Idealize.SL.Sem Idealize.ShloMosaic.ValueIdx

namespace Cert.RefValue

open Cert.ReferenceIdeal Cert.ReferenceIdeal.Gen

variable (m : (ℓ : Loc nD τ sig) → Buf (Elt Ideal) ℓ)

/-- Column block s's contribution to row r, column q. -/
def term (a0 : S30522x768.Idx → EReal) (a1 : S16x128x30522.Idx → EReal) (r q s : ℕ) : EReal :=
  ∑ k : Fin 512, MX a1 r (s * 512 + k.val) * MW a0 (s * 512 + k.val) q

/-- The contributions of the first n column blocks. -/
def partialSum (a0 : S30522x768.Idx → EReal) (a1 : S16x128x30522.Idx → EReal) (r q n : ℕ) : EReal :=
  ∑ s ∈ Finset.range n, term a0 a1 r q s

/-- The first window's block at point t is the padded weights' rows (t / 60) * 256 + p, columns (t % 60) * 512 + k. -/
theorem iblk0_at (c : Dev nD) (t : Fin cfg0.N) (p : Fin 256) (k : Fin 512) :
    (iblk m c 0 t : S256x512.Idx → EReal) (ix2 p k)
      = MX (m ((c : Thread nD τ).loc main_arg1)) (t.val / 60 * 256 + p.val) (t.val % 60 * 512 + k.val) := by
  have hN : t.val < 480 := lt_of_lt_of_eq t.isLt N_0
  have hr : t.val / 60 * 256 + p.val < 2048 := by omega
  have hk : t.val % 60 * 512 + k.val < 30720 := by omega
  unfold iblk
  refine (blk0_at (V m c main_v1) t p k hr hk).trans ?_
  exact (congrFun (entry_X m c) _).trans (padX_at _ ⟨_, hr⟩ ⟨_, hk⟩)

/-- The second window's block at point t is the padded table's rows (t % 60) * 512 + k. -/
theorem iblk1_at (c : Dev nD) (t : Fin cfg0.N) (k : Fin 512) (q : Fin 768) :
    (iblk m c 1 t : S512x768.Idx → EReal) (ix2 k q)
      = MW (m ((c : Thread nD τ).loc main_arg0)) (t.val % 60 * 512 + k.val) q.val := by
  have hN : t.val < 480 := lt_of_lt_of_eq t.isLt N_0
  have hk : t.val % 60 * 512 + k.val < 30720 := by omega
  unfold iblk
  refine (blk1_at (V m c main_v2) t k q hk).trans ?_
  exact (congrFun (entry_W m c) _).trans (padW_at _ ⟨_, hk⟩ q)

/-- The product of the two blocks at point t is that point's term. -/
theorem prod_at (c : Dev nD) (t : Fin cfg0.N) (p : Fin 256) (q : Fin 768) :
    blockProd (iblk m c 0 t) (iblk m c 1 t) p q
      = term (m ((c : Thread nD τ).loc main_arg0)) (m ((c : Thread nD τ).loc main_arg1)) (t.val / 60 * 256 + p.val) q.val (t.val % 60) := by
  unfold blockProd term
  exact Finset.sum_congr rfl fun k _ => congrArg₂ (· * ·) (iblk0_at m c t p k) (iblk1_at m c t k q)

/-- What the scratch holds after a first column block, -/
theorem scratch_A (c : Dev nD) (t : Fin cfg0.N) (h0 : t.val % 60 = 0) (h1 : ¬t.val % 60 = 59) :
    (outsAt0 m c t.val t.isLt).2 = k0_pay2 (k0_pay1 (F := Ideal)) (iblk m c 0 t) (iblk m c 1 t) := by
  rw [outsAt0_A m c t h0 h1]
  dsimp only
  exact scratch_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- after a middle one, -/
theorem scratch_B (c : Dev nD) (t : Fin cfg0.N) (h0 : ¬t.val % 60 = 0) (h1 : ¬t.val % 60 = 59) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 h1]
  dsimp only
  exact scratch_middle (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- after the last one, -/
theorem scratch_C (c : Dev nD) (t : Fin cfg0.N) (h0 : ¬t.val % 60 = 0) (h1 : t.val % 60 = 59) :
    (outsAt0 m c t.val t.isLt).2
      = k0_pay2 (outsAt0 m c (t.val - 1) (Nat.lt_of_le_of_lt (Nat.sub_le _ _) t.isLt)).2 (iblk m c 0 t) (iblk m c 1 t) := by
  rw [outsAt0_C m c t h0 h1]
  dsimp only
  exact scratch_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and the output block after the last one: the same. -/
theorem out_C (c : Dev nD) (t : Fin cfg0.N) (h0 : ¬t.val % 60 = 0) (h1 : t.val % 60 = 59) :
    (outsAt0 m c t.val t.isLt).1
      = k0_pay2 (outsAt0 m c (t.val - 1) (Nat.lt_of_le_of_lt (Nat.sub_le _ _) t.isLt)).2 (iblk m c 0 t) (iblk m c 1 t) := by
  rw [outsAt0_C m c t h0 h1]
  dsimp only
  exact out_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- THE RUNNING SUM: after point n the scratch holds, at (p, q), the terms of column blocks 0 .. n % 60 of row
    (n / 60) * 256 + p. -/
theorem scratch_inv (c : Dev nD) : ∀ (n : ℕ) (h : n < cfg0.N) (p : Fin 256) (q : Fin 768),
    ((outsAt0 m c n h).2 : S256x768.Idx → EReal) (ix2 p q)
      = partialSum (m ((c : Thread nD τ).loc main_arg0)) (m ((c : Thread nD τ).loc main_arg1)) (n / 60 * 256 + p.val) q.val (n % 60 + 1) := by
  intro n
  induction n with
  | zero =>
    intro h p q
    rw [scratch_A m c ⟨0, h⟩ (Nat.zero_mod _) (by show ¬(0 : ℕ) % 60 = 59; decide), step_at, zero_at, zero_add, prod_at]
    unfold partialSum
    rw [Finset.sum_range_one]
    rfl
  | succ n ih =>
    intro h p q
    have hN : n + 1 < 480 := lt_of_lt_of_eq h N_0
    by_cases h0 : (n + 1) % 60 = 0
    · have h1 : ¬(n + 1) % 60 = 59 := by omega
      rw [scratch_A m c ⟨n + 1, h⟩ h0 h1, step_at, zero_at, zero_add, prod_at]
      show term _ _ ((n + 1) / 60 * 256 + p.val) q.val ((n + 1) % 60) = _
      rw [h0]
      unfold partialSum
      rw [Finset.sum_range_one]
    · have e1 : (n + 1) / 60 = n / 60 := by omega
      have e2 : (n + 1) % 60 = n % 60 + 1 := by omega
      have step : ((outsAt0 m c (n + 1) h).2 : S256x768.Idx → EReal) (ix2 p q)
          = ((outsAt0 m c n (Nat.lt_of_succ_lt h)).2 : S256x768.Idx → EReal) (ix2 p q)
            + blockProd (iblk m c 0 ⟨n + 1, h⟩) (iblk m c 1 ⟨n + 1, h⟩) p q := by
        by_cases h1 : (n + 1) % 60 = 59
        · rw [scratch_C m c ⟨n + 1, h⟩ h0 h1, step_at]; rfl
        · rw [scratch_B m c ⟨n + 1, h⟩ h0 h1, step_at]; rfl
      rw [step, ih (Nat.lt_of_succ_lt h) p q, prod_at]
      show partialSum _ _ _ _ _ + term _ _ ((n + 1) / 60 * 256 + p.val) q.val ((n + 1) % 60) = _
      rw [e1, e2]
      unfold partialSum
      rw [Finset.sum_range_succ (n := n % 60 + 1)]

/-- At the last column block of a row block the output block holds all 60 terms. -/
theorem out_inv (c : Dev nD) (t : Fin cfg0.N) (h1 : t.val % 60 = 59) (p : Fin 256) (q : Fin 768) :
    ((outsAt0 m c t.val t.isLt).1 : S256x768.Idx → EReal) (ix2 p q)
      = partialSum (m ((c : Thread nD τ).loc main_arg0)) (m ((c : Thread nD τ).loc main_arg1)) (t.val / 60 * 256 + p.val) q.val 60 := by
  have h0 : ¬t.val % 60 = 0 := by omega
  have e : (outsAt0 m c t.val t.isLt).1 = (outsAt0 m c t.val t.isLt).2 := (out_C m c t h0 h1).trans (scratch_C m c t h0 h1).symm
  rw [e, scratch_inv m c t.val t.isLt p q, h1]

end Cert.RefValue

end
-- ==== Proof.RefFinal.lean ====
/-
  From the output blocks to the result array.

  The output block of row block R, written back at the last column block, holds at (p, q) all 60 terms of row
  R * 256 + p. The 60 column blocks of 512 reach 30720 >= 30522 and both padded operands are zero past 30522, so the
  terms add up to the plain sum over k < 30522 of weights times table (a sum taken in blocks of a zero-extended
  function is the plain sum; 0 * 0 = 0 on the extended reals): the specification at position (r / 128, r % 128). The
  eight row blocks tile the 2048 rows, so the result array is that function everywhere, and laid out again over
  16 x 128 positions it is the specification.
-/
import proofs.«113590_g2000002446326655_pallasbulk_315_20_alg».proof.Proof.Gen.ReferenceIdeal.Frame
import proofs.«113590_g2000002446326655_pallasbulk_315_20_alg».proof.Proof.RefInvariant
import proofs.«113590_g2000002446326655_pallasbulk_315_20_alg».proof.Proof.RefBlocks
import proofs.«113590_g2000002446326655_pallasbulk_315_20_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RefValue

open Cert.ReferenceIdeal Cert.ReferenceIdeal.Gen

variable (m : (ℓ : Loc nD τ sig) → Buf (Elt Ideal) ℓ)

/-- All 60 terms of a row are the specification's sum at that row's position. -/
theorem partial_eq_G (a0 : S30522x768.Idx → EReal) (a1 : S16x128x30522.Idx → EReal) (r : Fin 2048) (q : Fin 768) :
    partialSum a0 a1 r.val q.val 60
      = Cert.Spec.G a0 a1 (ix3 (⟨r.val / 128, by omega⟩ : Fin 16) (⟨r.val % 128, by omega⟩ : Fin 128) q) := by
  show _ = ∑ k : Fin 30522, a1 (ix3 (⟨r.val / 128, by omega⟩ : Fin 16) (⟨r.val % 128, by omega⟩ : Fin 128) k) * a0 (ix2 k q)
  refine Eq.trans ?_ (Cert.Spec.sum_blocks_padded 60 512 (by norm_num)
    (fun k : Fin 30522 => a1 (ix3 (⟨r.val / 128, by omega⟩ : Fin 16) (⟨r.val % 128, by omega⟩ : Fin 128) k) * a0 (ix2 k q)))
  unfold partialSum term
  refine Finset.sum_congr rfl fun s _ => Finset.sum_congr rfl fun k _ => ?_
  unfold MX MW Cert.Lib.BlockSum.zeroExt
  by_cases hk : s * 512 + k.val < 30522
  · rw [dif_pos ⟨r.isLt, hk⟩, dif_pos ⟨hk, q.isLt⟩, dif_pos hk]
  · rw [dif_neg (fun h => hk h.2), dif_neg (fun h => hk h.1), dif_neg hk, mul_zero]

/-- The result as 2048 rows of 768: row r, column q holds all 60 terms of row r. -/
def G3 (a0 : S30522x768.Idx → EReal) (a1 : S16x128x30522.Idx → EReal) : S2048x768.Idx → EReal :=
  fun i => partialSum a0 a1 (i 0).val (i 1).val 60

/-- What a last column block writes back is its block of that array. -/
theorem flushed_eq (c : Dev nD) (t : Fin cfg0.N) (hf : (cfg0.win 2).flush t = true) :
    (dats m 0 c).flushed 2 t = ((cfg0.win 2).blk t).view.read (Elt Ideal) (G3 (m ((c : Thread nD τ).loc main_arg0)) (m ((c : Thread nD τ).loc main_arg1))) := by
  have h1 : t.val % 60 = 59 := (flush0_2 t).mp hf
  have hN : t.val < 480 := lt_of_lt_of_eq t.isLt N_0
  show (cfg0.win 2).cut (grid0.coords t) ((dats m 0 c).after 2 t) = _
  rw [after0_2]
  show ((outsAt0 m c t.val t.isLt).1 : S256x768.Idx → EReal)
    = (((cfg0.win 2).blk t).view.read (Elt Ideal) (G3 (m ((c : Thread nD τ).loc main_arg0)) (m ((c : Thread nD τ).loc main_arg1))) : S256x768.Idx → EReal)
  funext j
  obtain ⟨p, q, rfl⟩ : ∃ (p : Fin 256) (q : Fin 768), j = ix2 p q := ⟨j 0, j 1, eq_ix2 j⟩
  have hr : t.val / 60 * 256 + p.val < 2048 := by omega
  exact (out_inv m c t h1 p q).trans (blk2_at (G3 (m ((c : Thread nD τ).loc main_arg0)) (m ((c : Thread nD τ).loc main_arg1))) t p q hr).symm

/-- An index of the result array is in point t's block iff each coordinate is in the block's range. -/
theorem mem_blk (t : Fin cfg0.N) (i : S2048x768.Idx) :
    i ∈ ((cfg0.win 2).blk t).view.set ↔ ∀ a : Fin 2, win0_2.index t a * S256x768.size a ≤ (i a).val
      ∧ (i a).val < win0_2.index t a * S256x768.size a + S256x768.size a := by
  show i ∈ ((View.whole main_v3).slice (win0_2.rect t)).set ↔ _
  rw [View.set_slice_whole, Rect.mem_set_unit]
  exact Iff.rfl

/-- Row r is covered by the last column block of row block r / 256: the result array after the run. -/
theorem final (c : Dev nD) : (dats m 0 c).arrAt 2 cfg0.N = G3 (m ((c : Thread nD τ).loc main_arg0)) (m ((c : Thread nD τ).loc main_arg1)) :=
  (dats m 0 c).arrAt_eq_of_cover 2 (G3 (m ((c : Thread nD τ).loc main_arg0)) (m ((c : Thread nD τ).loc main_arg1))) (flushed_eq m c) fun i => by
    have hi0 : (i 0).val < 2048 := (i 0).isLt
    have hi1 : (i 1).val < 768 := (i 1).isLt
    have hlt : (i 0).val / 256 * 60 + 59 < cfg0.N := by rw [show cfg0.N = 480 from N_0]; omega
    obtain ⟨-, -, -, -, e0, e1⟩ := idx_facts ⟨(i 0).val / 256 * 60 + 59, hlt⟩
    refine ⟨⟨(i 0).val / 256 * 60 + 59, hlt⟩, (flush0_2 _).mpr (by show ((i 0).val / 256 * 60 + 59) % 60 = 59; omega), ?_⟩
    rw [mem_blk]
    intro a
    match a with
    | ⟨0, _⟩ =>
      show win0_2.index ⟨(i 0).val / 256 * 60 + 59, hlt⟩ (0 : Fin 2) * 256 ≤ (i 0).val
        ∧ (i 0).val < win0_2.index ⟨(i 0).val / 256 * 60 + 59, hlt⟩ (0 : Fin 2) * 256 + 256
      rw [e0]
      show ((i 0).val / 256 * 60 + 59) / 60 * 256 ≤ (i 0).val ∧ (i 0).val < ((i 0).val / 256 * 60 + 59) / 60 * 256 + 256
      omega
    | ⟨1, _⟩ =>
      show win0_2.index ⟨(i 0).val / 256 * 60 + 59, hlt⟩ (1 : Fin 2) * 768 ≤ (i 1).val
        ∧ (i 1).val < win0_2.index ⟨(i 0).val / 256 * 60 + 59, hlt⟩ (1 : Fin 2) * 768 + 768
      rw [e1]
      omega

/-- Laid out again over 16 x 128 positions, it is the specification. -/
theorem reshape_G3 (a0 : S30522x768.Idx → EReal) (a1 : S16x128x30522.Idx → EReal) :
    shapeCast S16x128x768 (G3 a0 a1) shapeCasts_S2048x768_S16x128x768 = Cert.Spec.G a0 a1 := by
  funext i
  obtain ⟨b, s, h, rfl⟩ : ∃ (b : Fin 16) (s : Fin 128) (h : Fin 768), i = ix3 b s h := ⟨i 0, i 1, i 2, eq_ix3 i⟩
  have hr : b.val * 128 + s.val < 2048 := by omega
  have e1 : (b.val * 128 + s.val) / 128 = b.val := by omega
  have e2 : (b.val * 128 + s.val) % 128 = s.val := by omega
  refine (shapeCast_apply (G3 a0 a1) _ (ix3 b s h) (ix2 (⟨b.val * 128 + s.val, hr⟩ : Fin 2048) h) ?_).trans ?_
  · rw [Shape.rowMajor_val_two, Shape.rowMajor_val_three]; rfl
  · show partialSum a0 a1 (b.val * 128 + s.val) h.val 60 = _
    refine (partial_eq_G a0 a1 ⟨b.val * 128 + s.val, hr⟩ h).trans ?_
    congr 1
    funext a
    match a with
    | ⟨0, _⟩ => exact Fin.ext e1
    | ⟨1, _⟩ => exact Fin.ext e2
    | ⟨2, _⟩ => rfl

end Cert.RefValue

end
-- ==== Proof.RefRun.lean ====
/-
  The reference program's run, read.

  The program pads its two operands, runs the blocked product over the 8 x 1 x 60 grid and lays the 2048 x 768 result
  out over 16 x 128 positions. The blocked product leaves the result array at all 60 terms of every row, which is the
  specification's sum at that row's position; the last layout step makes it the specification itself. The two
  arguments are never written.
-/
import proofs.«113590_g2000002446326655_pallasbulk_315_20_alg».proof.Proof.Gen.ReferenceIdeal.Frame
import proofs.«113590_g2000002446326655_pallasbulk_315_20_alg».proof.Proof.RefFinal
import proofs.«113590_g2000002446326655_pallasbulk_315_20_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.RefValue

open Cert.ReferenceIdeal Cert.ReferenceIdeal.Gen

variable (m : (ℓ : Loc nD τ sig) → Buf (Elt Ideal) ℓ) (ρ : Dev nD → PrngReg)

/-- The program's result: the result array of the blocked product, laid out over the positions, is the specification
    of the two arguments. -/
theorem tail_eq (c : Dev nD) :
    (Pipeline.afterTail₀ cfgs (dats m) 0 (V0 m) [hostOps1] c main_v4 : S16x128x768.Idx → EReal)
      = Cert.Spec.G (m ((c : Thread nD τ).loc main_arg0)) (m ((c : Thread nD τ).loc main_arg1)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 2 cfg0.N := Pipeline.withArrays_arr spec0 launch0.win.arr_inj c _ _ 2
  rw [e, final m c]
  exact reshape_G3 _ _

/-- From any memory with zero counters every fair execution of the program ends with its result at the specification
    of the two arguments as launched, and the two arguments unchanged. -/
theorem run : θ_run (Cert.ReferenceIdeal.defs (F := Ideal)) (onTc (τ := Cert.ReferenceIdeal.τ) (Cert.ReferenceIdeal.main (F := Ideal))) ⟨m, fun _ => 0, ρ⟩
    (fun r => ∀ c : Dev Cert.ReferenceIdeal.nD,
      r.2.mem ((c.tc : Thread Cert.ReferenceIdeal.nD Cert.ReferenceIdeal.τ).loc Cert.ReferenceIdeal.main_v4)
          = Cert.Spec.G (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.RefValue

end
-- ==== Proof.lean ====
/- The proof of `Cert.Claim` (proofs.«113590_g2000002446326655_pallasbulk_315_20_alg».proof.Defs).

   Both programs compute, for weights x over 16 × 128 positions and 30522 table rows and a table w of 30522 rows of
   768 entries, the weighted sums  G w x (b, s, h) = Σ_{k < 30522} x(b, s, k) · w(k, h)  (Proof/Spec.lean).

   The kernel walks the table in fifteen blocks of 2048 rows, keeping the whole result in one buffer across the grid:
   the first point stores the block product, every later point adds its own, and the last — whose block overhangs the
   table by 198 rows — first zeroes the overhang in both operands, so that whatever the buffers hold there contributes
   0 · 0. Its frame is proved from the body's three cases (Proof/KBodyA.lean, Proof/KBody.lean; the same text at the
   word-level program, Proof/KDataBits.lean …), and its result array is read off the same proof data
   (Proof/KData.lean): each stored value at an index (Proof/KPay.lean), each block as the array's rows extended by
   zero (Proof/KBlocks.lean), the running sum by induction on the point (Proof/KAcc.lean), the one write-back and the
   host's view of the weights as a matrix (Proof/KFinal.lean), the run (Proof/KRun.lean).
   The reference pads both operands with zeros to 30720 rows and, for each of eight blocks of 256 positions,
   accumulates sixty products of 512 rows in a scratch buffer that it stores at the sixtieth; its frame is generated,
   and its result array is read off that frame (Proof/Ref*.lean).
   The two sides meet in G by regrouping one finite sum (Spec.sum_blocks_padded): only associativity, commutativity
   and the zero of addition on the extended reals are used, so the inputs' finiteness is never opened. The
   idealization rewrote nothing, so `preserves` is `True`. -/
import proofs.«113590_g2000002446326655_pallasbulk_315_20_alg».proof.Defs
import proofs.«113590_g2000002446326655_pallasbulk_315_20_alg».proof.Proof.KBody
import proofs.«113590_g2000002446326655_pallasbulk_315_20_alg».proof.Proof.KBodyBits
import proofs.«113590_g2000002446326655_pallasbulk_315_20_alg».proof.Proof.KRun
import proofs.«113590_g2000002446326655_pallasbulk_315_20_alg».proof.Proof.RefRun
import proofs.«113590_g2000002446326655_pallasbulk_315_20_alg».proof.Proof.Gen.Kernel
import proofs.«113590_g2000002446326655_pallasbulk_315_20_alg».proof.Proof.Gen.KernelIdeal
import proofs.«113590_g2000002446326655_pallasbulk_315_20_alg».proof.Proof.Gen.ReferenceIdeal
import proofs.«113590_g2000002446326655_pallasbulk_315_20_alg».proof.Proof.Gen.ReferenceIdeal.Frame
import proofs.«113590_g2000002446326655_pallasbulk_315_20_alg».proof.Proof.Gen.Pre_finite_inputs
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- And the idealized reference. -/
theorem frame_ri : Cert.frame_ReferenceIdeal := fun m ρ _ => Cert.ReferenceIdeal.Gen.frame m ρ

/-- From memories agreeing on the arguments both idealized programs end with the result at the weighted sums `G` of
    the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun r h c => ⟨(h c).1.trans ?_, (h c).2.1, (h c).2.2⟩)
    (Cert.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
